-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x256x256 : Shape := ⟨3, ![4, 256, 256]⟩
abbrev S128x256 : Shape := ⟨2, ![128, 256]⟩
abbrev S256x256 : Shape := ⟨2, ![256, 256]⟩
abbrev S_ : Shape := ⟨0, ![]⟩

class Facts : Prop where
  bcast_S_S4x256x256 : S_.BroadcastsInDim S4x256x256 (![] : Fin 0 → Fin S4x256x256.rank)
  reducesTo_S4x256x256_S_d0_1_2 : S4x256x256.ReducesTo [0, 1, 2] S_
  h_S_ : 0 < S_.numel
  bcast_S_S128x256 : S_.BroadcastsInDim S128x256 (![] : Fin 0 → Fin S128x256.rank)
  reducesTo_S128x256_S_d0_1 : S128x256.ReducesTo [0, 1] S_
  bcast_S_S256x256 : S_.BroadcastsInDim S256x256 (![] : Fin 0 → Fin S256x256.rank)
  reducesTo_S256x256_S_d0_1 : S256x256.ReducesTo [0, 1] S_

variable [Facts]

def fn_part1 {F : FTy → Type} [FloatOps F] (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  main_v18

def fn {F : FTy → Type} [FloatOps F] (main_arg0 : FVec F S4x256x256 .f32) (main_arg1 : FVec F S128x256 .f32) (main_arg2 : FVec F S256x256 .f32) (main_arg3 : FVec F S256x256 .f32) : IVec S_ 1 :=
  let main_v0 : FVec F S4x256x256 .f32 := Host.absf main_arg0
  let main_cst : FVec F S_ .f32 := constant S_ .f32 0x7F800000#32
  let main_v1 : FVec F S4x256x256 .f32 := broadcastInDim S4x256x256 ![] bcast_S_S4x256x256 main_cst
  let main_v2 : IVec S4x256x256 1 := cmpf .olt main_v0 main_v1
  let main_c : IVec S_ 1 := constantI S_ 1 1#1
  let main_v3 : IVec S_ 1 := (fun x v => Host.reduce IntOp.andi x v reducesTo_S4x256x256_S_d0_1_2 h_S_) main_v2 main_c
  let main_v4 : FVec F S128x256 .f32 := Host.absf main_arg1
  let main_cst_0 : FVec F S_ .f32 := constant S_ .f32 0x7F800000#32
  let main_v5 : FVec F S128x256 .f32 := broadcastInDim S128x256 ![] bcast_S_S128x256 main_cst_0
  let main_v6 : IVec S128x256 1 := cmpf .olt main_v4 main_v5
  let main_c_1 : IVec S_ 1 := constantI S_ 1 1#1
  let main_v7 : IVec S_ 1 := (fun x v => Host.reduce IntOp.andi x v reducesTo_S128x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_v13 main_v16
-- ==== Kernel.lean ====
abbrev S4x256x256 : Shape := ⟨3, ![4, 256, 256]⟩
abbrev S128x256 : Shape := ⟨2, ![128, 256]⟩
abbrev S256x256 : Shape := ⟨2, ![256, 256]⟩
abbrev S4x256x128 : Shape := ⟨3, ![4, 256, 128]⟩
abbrev S1x256x256 : Shape := ⟨3, ![1, 256, 256]⟩
abbrev S1x256x128 : Shape := ⟨3, ![1, 256, 128]⟩
abbrev S256 : Shape := ⟨1, ![256]⟩
abbrev S256x1 : Shape := ⟨2, ![256, 1]⟩
abbrev S256x128 : Shape := ⟨2, ![256, 128]⟩
abbrev S1x256 : Shape := ⟨2, ![1, 256]⟩
abbrev S64x256 : Shape := ⟨2, ![64, 256]⟩
abbrev S64x1 : Shape := ⟨2, ![64, 1]⟩
abbrev S1x128 : Shape := ⟨2, ![1, 128]⟩
abbrev S64x128 : Shape := ⟨2, ![64, 128]⟩
abbrev S128x128 : Shape := ⟨2, ![128, 128]⟩
abbrev S64x1x128 : Shape := ⟨3, ![64, 1, 128]⟩
abbrev S1x128x128 : Shape := ⟨3, ![1, 128, 128]⟩
abbrev S64x128x128 : Shape := ⟨3, ![64, 128, 128]⟩

abbrev nBuf : Space → Nat
  | .hbm => 5
  | .vmem => 8
  | .smem => 0
  | _ => 0

abbrev bufTy : (tb : Table) → Fin (tcTables nBuf tb) → BufTy
  | .hbm, ⟨0, _⟩ => ⟨S4x256x256, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S4x256x128, .f32⟩
  | .local _ .vmem, ⟨0, _⟩ => ⟨S1x256x256, .f32⟩
  | .local _ .vmem, ⟨1, _⟩ => ⟨S1x256x256, .f32⟩
  | .local _ .vmem, ⟨2, _⟩ => ⟨S128x256, .f32⟩
  | .local _ .vmem, ⟨3, _⟩ => ⟨S256x256, .f32⟩
  | .local _ .vmem, ⟨4, _⟩ => ⟨S256x256, .f32⟩
  | .local _ .vmem, ⟨5, _⟩ => ⟨S1x256x128, .f32⟩
  | .local _ .vmem, ⟨6, _⟩ => ⟨S1x256x128, .f32⟩
  | .local _ .vmem, ⟨7, _⟩ => ⟨S256x256, .f32⟩
  | _, _ => ⟨S4x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  reduces_S256x256_S256 : S256x256.Reduces [1] S256
  shapeCasts_S256_S256x1 : S256.ShapeCasts S256x1
  broadcasts_S256x1_S256x256 : S256x1.Broadcasts S256x256
  inb_S128x256_S128x256_0_0 : ∀ a, (![0, 0] : Fin 2 → Nat) a + S128x256.size a ≤ S128x256.size a
  h_S128x256 : 0 < S128x256.numel
  inb_S256x256_S256x256_0_0 : ∀ a, (![0, 0] : Fin 2 → Nat) a + S256x256.size a ≤ S256x256.size a
  h_S256x256 : 0 < S256x256.numel
  bitsLt_bf16_f32 : FTy.bits .bf16 < FTy.bits .f32
  shapeCasts_S256_S1x256 : S256.ShapeCasts S1x256
  shapeCasts_S256x256_S256x256 : S256x256.ShapeCasts S256x256
  slices_S256x256_o0_0_S64x256 : S256x256.Slices ![0, 0] S64x256
  slices_S256x1_o0_0_S64x1 : S256x1.Slices ![0, 0] S64x1
  slices_S256x256_o0_0_S128x256 : S256x256.Slices ![0, 0] S128x256
  slices_S1x256_o0_0_S1x128 : S1x256.Slices ![0, 0] S1x128
  slices_S64x256_o0_0_S64x128 : S64x256.Slices ![0, 0] S64x128
  slices_S128x256_o0_0_S128x128 : S128x256.Slices ![0, 0] S128x128
  shapeCasts_S64x128_S64x1x128 : S64x128.ShapeCasts S64x1x128
  shapeCasts_S128x128_S1x128x128 : S128x128.ShapeCasts S1x128x128
  broadcasts_S64x1x128_S64x128x128 : S64x1x128.Broadcasts S64x128x128
  broadcasts_S1x128x128_S64x128x128 : S1x128x128.Broadcasts S64x128x128
  reduces_S64x128x128_S64x128 : S64x128x128.Reduces [2] S64x128
  slices_S64x256_o0_128_S64x128 : S64x256.Slices ![0, 128] S64x128
  slices_S128x256_o0_128_S128x128 : S128x256.Slices ![0, 128] S128x128
  broadcasts_S64x1_S64x128 : S64x1.Broadcasts S64x128
  broadcasts_S1x128_S64x128 : S1x128.Broadcasts S64x128
  iota_S64x128_d0_w32 : S64x128.Iotas .tc 32 [0]
  iota_S64x128_d1_w32 : S64x128.Iotas .tc 32 [1]
  inb_S256x256_S64x128_0_0 : ∀ a, (![0, 0] : Fin 2 → Nat) a + S64x128.size a ≤ S256x256.size a
  h_S64x128 : 0 < S64x128.numel
  shapeCasts_S64x128_S64x128 : S64x128.ShapeCasts S64x128
  slices_S256x256_o64_0_S64x256 : S256x256.Slices ![64, 0] S64x256
  slices_S256x1_o64_0_S64x1 : S256x1.Slices ![64, 0] S64x1
  inb_S256x256_S64x128_64_0 : ∀ a, (![64, 0] : Fin 2 → Nat) a + S64x128.size a ≤ S256x256.size a
  slices_S256x256_o128_0_S64x256 : S256x256.Slices ![128, 0] S64x256
  slices_S256x1_o128_0_S64x1 : S256x1.Slices ![128, 0] S64x1
  inb_S256x256_S64x128_128_0 : ∀ a, (![128, 0] : Fin 2 → Nat) a + S64x128.size a ≤ S256x256.size a
  slices_S256x256_o128_0_S128x256 : S256x256.Slices ![128, 0] S128x256
  slices_S1x256_o0_128_S1x128 : S1x256.Slices ![0, 128] S1x128
  inb_S256x256_S64x128_128_128 : ∀ a, (![128, 128] : Fin 2 → Nat) a + S64x128.size a ≤ S256x256.size a
  slices_S256x256_o192_0_S64x256 : S256x256.Slices ![192, 0] S64x256
  slices_S256x1_o192_0_S64x1 : S256x1.Slices ![192, 0] S64x1
  inb_S256x256_S64x128_192_0 : ∀ a, (![192, 0] : Fin 2 → Nat) a + S64x128.size a ≤ S256x256.size a
  inb_S256x256_S64x128_192_128 : ∀ a, (![192, 128] : Fin 2 → Nat) a + S64x128.size a ≤ S256x256.size a
  inb_S1x256x128_S1x256x128_0_0_0 : ∀ a, (![0, 0, 0] : Fin 3 → Nat) a + S1x256x128.size a ≤ S1x256x128.size a
  h_S1x256x128 : 0 < S1x256x128.numel
  shapeCasts_S1x256x128_S256x128 : S1x256x128.ShapeCasts S256x128
  shapeCasts_S256x128_S1x256x128 : S256x128.ShapeCasts S1x256x128
  dot_S256x256_S128x256_S256x128_1_1_0_0_n_n_wf : DotDims.WF S256x256 S128x256 S256x128 [1] [1] [0] [0] [] []
  dot_S256x256_S256x256_S256x256_1_1_0_0_n_n_wf : DotDims.WF S256x256 S256x256 S256x256 [1] [1] [0] [0] [] []
  dot_S256x256_S256x128_S256x128_1_0_0_1_n_n_wf : DotDims.WF S256x256 S256x128 S256x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x256.size a ≤ S4x256x256.size a
  hwx0_0 : ∀ i : grid0.Coords, EltTy.bits .f32 = 32 ∨ (Rect.block (s := S4x256x256) S1x256x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x256.size a ≤ S128x256.size a
  hwx0_1 : ∀ i : grid0.Coords, EltTy.bits .f32 = 32 ∨ (Rect.block (s := S128x256) S128x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x128.size a ≤ S4x256x128.size a
  hwx0_4 : ∀ i : grid0.Coords, EltTy.bits .f32 = 32 ∨ (Rect.block (s := S4x256x128) S1x256x128.size (cc0_transform_4 i) (hinb0_4 i)).WholeWords (EltTy.packing .f32)

variable [Facts₀]

def dot_S256x256_S128x256_S256x128_1_1_0_0_n_n : DotDims S256x256 S128x256 S256x128 where
  lhsContracting := [1]
  rhsContracting := [1]
  lhsNonContracting := [0]
  rhsNonContracting := [0]
  lhsBatch := []
  rhsBatch := []
  wf := dot_S256x256_S128x256_S256x128_1_1_0_0_n_n_wf
def dot_S256x256_S256x256_S256x256_1_1_0_0_n_n : DotDims S256x256 S256x256 S256x256 where
  lhsContracting := [1]
  rhsContracting := [1]
  lhsNonContracting := [0]
  rhsNonContracting := [0]
  lhsBatch := []
  rhsBatch := []
  wf := dot_S256x256_S256x256_S256x256_1_1_0_0_n_n_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf

abbrev win0_0 : Pipeline.Window sig grid0 :=
  Pipeline.Window.ofSpec (Memref.whole main_arg0) S1x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x256x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x256x256 : Shape := ⟨3, ![4, 256, 256]⟩
abbrev S128x256 : Shape := ⟨2, ![128, 256]⟩
abbrev S256x256 : Shape := ⟨2, ![256, 256]⟩
abbrev S4x256x128 : Shape := ⟨3, ![4, 256, 128]⟩
abbrev S_ : Shape := ⟨0, ![]⟩
abbrev S4x256 : Shape := ⟨2, ![4, 256]⟩
abbrev S4x256x1 : Shape := ⟨3, ![4, 256, 1]⟩
abbrev S4x256x1x256 : Shape := ⟨4, ![4, 256, 1, 256]⟩
abbrev S4x1x256x256 : Shape := ⟨4, ![4, 1, 256, 256]⟩
abbrev S4x256x256x256 : Shape := ⟨4, ![4, 256, 256, 256]⟩

abbrev nBuf : Space → Nat
  | .hbm => 113
  | .vmem => 0
  | .smem => 0
  | _ => 0

abbrev bufTy : (tb : Table) → Fin (tcTables nBuf tb) → BufTy
  | .hbm, ⟨0, _⟩ => ⟨S4x256x256, .f32⟩
  | .hbm, ⟨1, _⟩ => ⟨S128x256, .f32⟩
  | .hbm, ⟨2, _⟩ => ⟨S256x256, .f32⟩
  | .hbm, ⟨3, _⟩ => ⟨S256x256, .f32⟩
  | .hbm, ⟨4, _⟩ => ⟨S4x256x128, .f32⟩
  | .hbm, ⟨5, _⟩ => ⟨S4x256x256, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S4x256x1, .f32⟩
  | .hbm, ⟨10, _⟩ => ⟨S_, .f32⟩
  | .hbm, ⟨11, _⟩ => ⟨S4x256x1, .f32⟩
  | .hbm, ⟨12, _⟩ => ⟨S4x256x1, .f32⟩
  | .hbm, ⟨13, _⟩ => ⟨S4x256x256, .f32⟩
  | .hbm, ⟨14, _⟩ => ⟨S4x256x256, .f32⟩
  | .hbm, ⟨15, _⟩ => ⟨S4x256x256, .f32⟩
  | .hbm, ⟨16, _⟩ => ⟨S4x256x256, .f32⟩
  | .hbm, ⟨17, _⟩ => ⟨S_, .f32⟩
  | .hbm, ⟨18, _⟩ => ⟨S4x256, .f32⟩
  | .hbm, ⟨19, _⟩ => ⟨S4x256x1, .f32⟩
  | .hbm, ⟨20, _⟩ => ⟨S_, .f32⟩
  | .hbm, ⟨21, _⟩ => ⟨S4x256x1, .f32⟩
  | .hbm, ⟨22, _⟩ => ⟨S4x256x1, .f32⟩
  | .hbm, ⟨23, _⟩ => ⟨S4x256x256, .f32⟩
  | .hbm, ⟨24, _⟩ => ⟨S4x256x256, .f32⟩
  | .hbm, ⟨25, _⟩ => ⟨S4x256x256, .f32⟩
  | .hbm, ⟨26, _⟩ => ⟨S_, .f32⟩
  | .hbm, ⟨27, _⟩ => ⟨S4x256, .f32⟩
  | .hbm, ⟨28, _⟩ => ⟨S4x256x1, .f32⟩
  | .hbm, ⟨29, _⟩ => ⟨S4x256x1, .f32⟩
  | .hbm, ⟨30, _⟩ => ⟨S_, .f32⟩
  | .hbm, ⟨31, _⟩ => ⟨S4x256x1, .f32⟩
  | .hbm, ⟨32, _⟩ => ⟨S4x256x1, .f32⟩
  | .hbm, ⟨33, _⟩ => ⟨S4x256x256, .f32⟩
  | .hbm, ⟨34, _⟩ => ⟨S4x256x256, .f32⟩
  | .hbm, ⟨35, _⟩ => ⟨S4x256x256, .f32⟩
  | .hbm, ⟨36, _⟩ => ⟨S4x256x256, .f32⟩
  | .hbm, ⟨37, _⟩ => ⟨S_, .f32⟩
  | .hbm, ⟨38, _⟩ => ⟨S4x256, .f32⟩
  | .hbm, ⟨39, _⟩ => ⟨S4x256x1, .f32⟩
  | .hbm, ⟨40, _⟩ => ⟨S_, .f32⟩
  | .hbm, ⟨41, _⟩ => ⟨S4x256x1, .f32⟩
  | .hbm, ⟨42, _⟩ => ⟨S4x256x1, .f32⟩
  | .hbm, ⟨43, _⟩ => ⟨S4x256x256, .f32⟩
  | .hbm, ⟨44, _⟩ => ⟨S4x256x256, .f32⟩
  | .hbm, ⟨45, _⟩ => ⟨S4x256x1x256, .f32⟩
  | .hbm, ⟨46, _⟩ => ⟨S4x1x256x256, .f32⟩
  | .hbm, ⟨47, _⟩ => ⟨S4x256x256x256, .f32⟩
  | .hbm, ⟨48, _⟩ => ⟨S4x256x256x256, .f32⟩
  | .hbm, ⟨49, _⟩ => ⟨S4x256x256x256, .f32⟩
  | .hbm, ⟨50, _⟩ => ⟨S_, .f32⟩
  | .hbm, ⟨51, _⟩ => ⟨S4x256x256x256, .f32⟩
  | .hbm, ⟨52, _⟩ => ⟨S4x256x256x256, .f32⟩
  | .hbm, ⟨53, _⟩ => ⟨S_, .f32⟩
  | .hbm, ⟨54, _⟩ => ⟨S4x256x256x256, .f32⟩
  | .hbm, ⟨55, _⟩ => ⟨S4x256x256x256, .f32⟩
  | .hbm, ⟨56, _⟩ => ⟨S4x256x256x256, .f32⟩
  | .hbm, ⟨57, _⟩ => ⟨S_, .f32⟩
  | .hbm, ⟨58, _⟩ => ⟨S4x256x1x256, .f32⟩
  | .hbm, ⟨59, _⟩ => ⟨S4x256x1x256, .f32⟩
  | .hbm, ⟨60, _⟩ => ⟨S4x256x1x256, .f32⟩
  | .hbm, ⟨61, _⟩ => ⟨S4x256x256x256, .f32⟩
  | .hbm, ⟨62, _⟩ => ⟨S4x256x256x256, .f32⟩
  | .hbm, ⟨63, _⟩ => ⟨S4x256x256x256, .f32⟩
  | .hbm, ⟨64, _⟩ => ⟨S4x256x256x256, .f32⟩
  | .hbm, ⟨65, _⟩ => ⟨S_, .f32⟩
  | .hbm, ⟨66, _⟩ => ⟨S4x256x256, .f32⟩
  | .hbm, ⟨67, _⟩ => ⟨S_, .f32⟩
  | .hbm, ⟨68, _⟩ => ⟨S4x256x256, .f32⟩
  | .hbm, ⟨69, _⟩ => ⟨S4x256x256, .f32⟩
  | .hbm, ⟨70, _⟩ => ⟨S_, .f32⟩
  | .hbm, ⟨71, _⟩ => ⟨S4x1x256x256, .f32⟩
  | .hbm, ⟨72, _⟩ => ⟨S4x1x256x256, .f32⟩
  | .hbm, ⟨73, _⟩ => ⟨S4x1x256x256, .f32⟩
  | .hbm, ⟨74, _⟩ => ⟨S4x256x256x256, .f32⟩
  | .hbm, ⟨75, _⟩ => ⟨S4x256x256x256, .f32⟩
  | .hbm, ⟨76, _⟩ => ⟨S4x256x256x256, .f32⟩
  | .hbm, ⟨77, _⟩ => ⟨S4x256x256x256, .f32⟩
  | .hbm, ⟨78, _⟩ => ⟨S_, .f32⟩
  | .hbm, ⟨79, _⟩ => ⟨S4x256x256, .f32⟩
  | .hbm, ⟨80, _⟩ => ⟨S_, .f32⟩
  | .hbm, ⟨81, _⟩ => ⟨S4x256x256, .f32⟩
  | .hbm, ⟨82, _⟩ => ⟨S4x256x256, .f32⟩
  | .hbm, ⟨83, _⟩ => ⟨S4x256x256, .f32⟩
  | .hbm, ⟨84, _⟩ => ⟨S_, .f32⟩
  | .hbm, ⟨85, _⟩ => ⟨S4x256x256, .f32⟩
  | .hbm, ⟨86, _⟩ => ⟨S4x256x256, .f32⟩
  | .hbm, ⟨87, _⟩ => ⟨S_, .i1⟩
  | .hbm, ⟨88, _⟩ => ⟨S256x256, .i1⟩
  | .hbm, ⟨89, _⟩ => ⟨S256x256, .i32⟩
  | .hbm, ⟨90, _⟩ => ⟨S_, .i32⟩
  | .hbm, ⟨91, _⟩ => ⟨S256x256, .i32⟩
  | .hbm, ⟨92, _⟩ => ⟨S256x256, .i32⟩
  | .hbm, ⟨93, _⟩ => ⟨S256x256, .i32⟩
  | .hbm, ⟨94, _⟩ => ⟨S256x256, .i1⟩
  | .hbm, ⟨95, _⟩ => ⟨S_, .i1⟩
  | .hbm, ⟨96, _⟩ => ⟨S256x256, .i1⟩
  | .hbm, ⟨97, _⟩ => ⟨S256x256, .i1⟩
  | .hbm, ⟨98, _⟩ => ⟨S_, .f32⟩
  | .hbm, ⟨99, _⟩ => ⟨S_, .f32⟩
  | .hbm, ⟨100, _⟩ => ⟨S4x256x256, .i1⟩
  | .hbm, ⟨101, _⟩ => ⟨S4x256x256, .f32⟩
  | .hbm, ⟨102, _⟩ => ⟨S4x256x256, .f32⟩
  | .hbm, ⟨103, _⟩ => ⟨S4x256x256, .f32⟩
  | .hbm, ⟨104, _⟩ => ⟨S_, .f32⟩
  | .hbm, ⟨105, _⟩ => ⟨S4x256, .f32⟩
  | .hbm, ⟨106, _⟩ => ⟨S4x256x1, .f32⟩
  | .hbm, ⟨107, _⟩ => ⟨S_, .f32⟩
  | .hbm, ⟨108, _⟩ => ⟨S4x256x1, .f32⟩
  | .hbm, ⟨109, _⟩ => ⟨S4x256x1, .f32⟩
  | .hbm, ⟨110, _⟩ => ⟨S4x256x256, .f32⟩
  | .hbm, ⟨111, _⟩ => ⟨S4x256x256, .f32⟩
  | .hbm, ⟨112, _⟩ => ⟨S4x256x128, .f32⟩
  | _, _ => ⟨S4x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_call1_v0 : Ref sig .tc := ⟨.hbm, 25, rfl⟩
abbrev main_call1_cst : Ref sig .tc := ⟨.hbm, 26, rfl⟩
abbrev main_call1_v1 : Ref sig .tc := ⟨.hbm, 27, rfl⟩
abbrev main_call1_v2 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_cst_4 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_5 : Ref sig .tc := ⟨.hbm, 50, rfl⟩
abbrev main_v32 : Ref sig .tc := ⟨.hbm, 51, rfl⟩
abbrev main_v33 : Ref sig .tc := ⟨.hbm, 52, rfl⟩
abbrev main_cst_6 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_8 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_cst_10 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_cst_12 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_cst_13 : Ref sig .tc := ⟨.hbm, 84, rfl⟩
abbrev main_v58 : Ref sig .tc := ⟨.hbm, 85, rfl⟩
abbrev main_v59 : Ref sig .tc := ⟨.hbm, 86, rfl⟩
abbrev main_c : Ref sig .tc := ⟨.hbm, 87, rfl⟩
abbrev main_v60 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_v2 : Ref sig .tc := ⟨.hbm, 92, rfl⟩
abbrev main_call2_v3 : Ref sig .tc := ⟨.hbm, 93, rfl⟩
abbrev main_call2_v4 : Ref sig .tc := ⟨.hbm, 94, rfl⟩
abbrev main_call2_c_0 : Ref sig .tc := ⟨.hbm, 95, rfl⟩
abbrev main_call2_v5 : Ref sig .tc := ⟨.hbm, 96, rfl⟩
abbrev main_v61 : Ref sig .tc := ⟨.hbm, 97, rfl⟩
abbrev main_cst_14 : Ref sig .tc := ⟨.hbm, 98, rfl⟩
abbrev main_call3_v0 : Ref sig .tc := ⟨.hbm, 99, rfl⟩
abbrev main_call3_v1 : Ref sig .tc := ⟨.hbm, 100, rfl⟩
abbrev main_call3_v2 : Ref sig .tc := ⟨.hbm, 101, rfl⟩
abbrev main_v62 : Ref sig .tc := ⟨.hbm, 102, rfl⟩
abbrev main_v63 : Ref sig .tc := ⟨.hbm, 103, rfl⟩
abbrev main_cst_15 : Ref sig .tc := ⟨.hbm, 104, rfl⟩
abbrev main_v64 : Ref sig .tc := ⟨.hbm, 105, rfl⟩
abbrev main_v65 : Ref sig .tc := ⟨.hbm, 106, rfl⟩
abbrev main_cst_16 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩

abbrev nD : Nat := 1
abbrev τ : Topo := Topo.v7x

variable {F : FTy → Type} [FloatOps F]

class Facts₀ : Prop where
  reducesTo_S4x256x256_S4x256_d2 : S4x256x256.ReducesTo [2] S4x256
  h_S_ : 0 < S_.numel
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x256_0_1_2 : S4x256x1.BroadcastsInDim S4x256x256 (![0, 1, 2] : Fin 3 → Fin S4x256x256.rank)
  bcast_S4x256x256_S4x256x1x256_0_1_3 : S4x256x256.BroadcastsInDim S4x256x1x256 (![0, 1, 3] : Fin 3 → Fin S4x256x1x256.rank)
  bcast_S4x256x256_S4x1x256x256_0_2_3 : S4x256x256.BroadcastsInDim S4x1x256x256 (![0, 2, 3] : Fin 3 → Fin S4x1x256x256.rank)
  bcast_S4x256x1x256_S4x256x256x256_0_1_2_3 : S4x256x1x256.BroadcastsInDim S4x256x256x256 (![0, 1, 2, 3] : Fin 4 → Fin S4x256x256x256.rank)
  bcast_S4x1x256x256_S4x256x256x256_0_1_2_3 : S4x1x256x256.BroadcastsInDim S4x256x256x256 (![0, 1, 2, 3] : Fin 4 → Fin S4x256x256x256.rank)
  bcast_S_S4x256x256x256 : S_.BroadcastsInDim S4x256x256x256 (![] : Fin 0 → Fin S4x256x256x256.rank)
  bcast_S_S4x256x1x256 : S_.BroadcastsInDim S4x256x1x256 (![] : Fin 0 → Fin S4x256x1x256.rank)
  reducesTo_S4x256x256x256_S4x256x256_d3 : S4x256x256x256.ReducesTo [3] S4x256x256
  bcast_S_S4x256x256 : S_.BroadcastsInDim S4x256x256 (![] : Fin 0 → Fin S4x256x256.rank)
  bcast_S_S4x1x256x256 : S_.BroadcastsInDim S4x1x256x256 (![] : Fin 0 → Fin S4x1x256x256.rank)
  bcast_S_S256x256 : S_.BroadcastsInDim S256x256 (![] : Fin 0 → Fin S256x256.rank)
  bcast_S256x256_S4x256x256_1_2 : S256x256.BroadcastsInDim S4x256x256 (![1, 2] : Fin 2 → Fin S4x256x256.rank)
  dot_S4x256x256_S128x256_S4x256x128_2_1_01_0_n_n_wf : DotDims.WF S4x256x256 S128x256 S4x256x128 [2] [1] [0, 1] [0] [] []
  dot_S4x256x256_S256x256_S4x256x256_2_1_01_0_n_n_wf : DotDims.WF S4x256x256 S256x256 S4x256x256 [2] [1] [0, 1] [0] [] []
  dot_S4x256x256_S4x256x128_S4x256x128_2_1_1_2_0_0_wf : DotDims.WF S4x256x256 S4x256x128 S4x256x128 [2] [1] [1] [2] [0] [0]

variable [Facts₀]

def dot_S4x256x256_S128x256_S4x256x128_2_1_01_0_n_n : DotDims S4x256x256 S128x256 S4x256x128 where
  lhsContracting := [2]
  rhsContracting := [1]
  lhsNonContracting := [0, 1]
  rhsNonContracting := [0]
  lhsBatch := []
  rhsBatch := []
  wf := dot_S4x256x256_S128x256_S4x256x128_2_1_01_0_n_n_wf
def dot_S4x256x256_S256x256_S4x256x256_2_1_01_0_n_n : DotDims S4x256x256 S256x256 S4x256x256 where
  lhsContracting := [2]
  rhsContracting := [1]
  lhsNonContracting := [0, 1]
  rhsNonContracting := [0]
  lhsBatch := []
  rhsBatch := []
  wf := dot_S4x256x256_S256x256_S4x256x256_2_1_01_0_n_n_wf
def dot_S4x256x256_S4x256x128_S4x256x128_2_1_1_2_0_0 : DotDims S4x256x256 S4x256x128 S4x256x128 where
  lhsContracting := [2]
  rhsContracting := [1]
  lhsNonContracting := [1]
  rhsNonContracting := [2]
  lhsBatch := [0]
  rhsBatch := [0]
  wf := dot_S4x256x256_S4x256x128_S4x256x128_2_1_1_2_0_0_wf

class Facts : Prop extends Facts₀ where

variable [Facts]
-- ==== Proof.LibIsReal.lean ====
/-
  Extended reals that are real numbers.

  On the extended reals the field laws (distributivity, cancelling, moving a factor across a sum) fail at the
  infinities, so a value proof that needs one first shows its operands are real. `IsReal a` says `a` is the image of a
  real number; it is closed under sums, differences, products, finite sums and quotients by a nonzero real, holds of
  every integer-valued float, and holds of every IEEE word whose exponent field is not all ones (a zero, a subnormal or
  a normal number: everything but the infinities and the NaN patterns). With operands real, an identity of the real
  field transfers by pushing the coercion out (`← EReal.coe_add`, `← EReal.coe_mul`, …) and `ring`.
-/
import Idealize.ShloMosaic.PureOps.Ideal

noncomputable section

namespace Cert

open Idealize.ShloMosaic

/-- `a` is a real number. -/
def IsReal (a : EReal) : Prop := ∃ r : ℝ, a = (r : EReal)

theorem IsReal.coe (r : ℝ) : IsReal (r : EReal) := ⟨r, rfl⟩
theorem IsReal.zero : IsReal 0 := ⟨0, rfl⟩
theorem IsReal.add {a b : EReal} (ha : IsReal a) (hb : IsReal b) : IsReal (a + b) := by
  obtain ⟨x, rfl⟩ := ha; obtain ⟨y, rfl⟩ := hb; exact ⟨x + y, (EReal.coe_add x y).symm⟩
theorem IsReal.sub {a b : EReal} (ha : IsReal a) (hb : IsReal b) : IsReal (a - b) := by
  obtain ⟨x, rfl⟩ := ha; obtain ⟨y, rfl⟩ := hb; exact ⟨x - y, (EReal.coe_sub x y).symm⟩
theorem IsReal.mul {a b : EReal} (ha : IsReal a) (hb : IsReal b) : IsReal (a * b) := by
  obtain ⟨x, rfl⟩ := ha; obtain ⟨y, rfl⟩ := hb; exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => simpa using IsReal.zero
  | insert a s ha ih => rw [Finset.sum_insert ha]; exact (h a).add ih
/-- A quotient by a nonzero real. -/
theorem IsReal.div {a : EReal} (ha : IsReal a) {y : ℝ} (hy : y ≠ 0) : IsReal (Ideal.div a (y : EReal)) := by
  rw [Ideal.div_coe hy]; exact ha.mul (IsReal.coe _)

/-- A word of an IEEE format with `e` exponent bits and `mm` fraction bits whose exponent field is not all ones denotes
    a real number (for a literal word the side condition is decided: `isReal_ieee 8 23 _ (by decide)`). -/
theorem isReal_ieee (e mm : Nat) {w : Nat} (b : BitVec w) (h : (b.extractLsb' mm e).toNat ≠ 2 ^ e - 1) :
    IsReal (Ideal.ieee e mm b) := by
  unfold Ideal.ieee
  simp only []
  rw [if_neg h]
  split <;> exact ⟨_, rfl⟩

end Cert

end
-- ==== Proof.Spec.lean ====
/-
  The layer as ONE function of its four argument arrays, on the extended reals.

  For one batch slab X (256 tokens by 256 features) and weight matrices Wq, Wk (256 by 256) and Wv (128 by 256):
  each token is divided by its Euclidean norm plus 1e-12 (psi), projected on the rows of W (amp), squared and
  divided by the row's total plus 1e-10 (rho): a row of rho is a vector of nonnegative reals.  The score of a
  (query i, key j) pair with j ≤ i is one minus the Jensen–Shannon term of the rows P = rho_q i and Q = rho_k j,
  zero otherwise; a row of scores is divided by the larger of its L1 norm and 1e-12 and multiplied with
  V = X · Wvᵀ.

  The Jensen–Shannon term is written in two ways.  With M e = log (½ (P e + Q e) + 1e-10):
    jsRef = ½ Σ P (log (P + 1e-10) − M) + ½ Σ Q (log (Q + 1e-10) − M)
    jsKer = ½ (Σ P log (P + 1e-10) + Σ Q log (Q + 1e-10)) − ½ (Σ P M + Σ Q M)
  They are equal when every P e and Q e is a nonnegative real: then every logarithm is taken of a positive real and
  is real, and the equality is distributivity in the real field.  (On the extended reals distributivity fails at the
  infinities, so the realness is needed.)
-/
import Idealize.ShloMosaic.PureOps.Ideal
import Idealize.ShloMosaic.PureOps.Ideal.Laws
import Idealize.ShloMosaic.Lib.ValueIdx
import proofs.«117373_j30442728194141_1_alg».proof.Proof.LibIsReal

noncomputable section

namespace Cert.Spec

open Idealize.ShloMosaic Idealize.ShloMosaic.ValueIdx

/-- The four float literals of the layer, as the extended reals their words denote. -/
abbrev e12 : EReal := Ideal.ofBits .f32 0x2B8CBCCC#32
abbrev e10 : EReal := Ideal.ofBits .f32 0x2EDBE6FF#32
abbrev hf : EReal := Ideal.ofBits .f32 0x3F000000#32
abbrev one : EReal := Ideal.ofBits .f32 0x3F800000#32

/-! ## The layer -/

/-- A token divided by its norm plus 1e-12. -/
def psi (X : Fin 256 → Fin 256 → EReal) (r e : Fin 256) : EReal :=
  Ideal.div (X r e) (Ideal.sqrt (∑ k : Fin 256, X r k * X r k) + e12)

/-- The normalised token projected on row f of W. -/
def amp (X W : Fin 256 → Fin 256 → EReal) (r f : Fin 256) : EReal := ∑ e : Fin 256, psi X r e * W f e

/-- The squared projections of a token, divided by their total plus 1e-10. -/
def rho (X W : Fin 256 → Fin 256 → EReal) (r f : Fin 256) : EReal :=
  Ideal.div (amp X W r f * amp X W r f) ((∑ g : Fin 256, amp X W r g * amp X W r g) + e10)

/-- The value projection X · Wvᵀ. -/
def val (X : Fin 256 → Fin 256 → EReal) (Wv : Fin 128 → Fin 256 → EReal) (r : Fin 256) (h : Fin 128) : EReal :=
  ∑ e : Fin 256, X r e * Wv h e

/-- log of the mixture ½ (P e + Q e) + 1e-10. -/
def lm (a b : Fin 256 → EReal) (e : Fin 256) : EReal := Ideal.log (hf * (a e + b e) + e10)

/-- Σ P log (P + 1e-10). -/
def ent (a : Fin 256 → EReal) : EReal := ∑ e : Fin 256, a e * Ideal.log (a e + e10)

/-- The Jensen–Shannon term as the reference writes it. -/
def jsRef (a b : Fin 256 → EReal) : EReal :=
  hf * (∑ e : Fin 256, a e * (Ideal.log (a e + e10) - lm a b e))
    + hf * (∑ e : Fin 256, b e * (Ideal.log (b e + e10) - lm a b e))

/-- The Jensen–Shannon term as the kernel writes it. -/
def jsKer (a b : Fin 256 → EReal) : EReal :=
  hf * (ent a + ent b) - hf * ((∑ e : Fin 256, a e * lm a b e) + (∑ e : Fin 256, b e * lm a b e))

/-- The causally masked score of a Jensen–Shannon table. -/
def score (js : Fin 256 → Fin 256 → EReal) (i j : Fin 256) : EReal :=
  if j.val ≤ i.val then one - js i j else 0

/-- A row of scores divided by max (its L1 norm, 1e-12), times V. -/
def attnOut (S : Fin 256 → Fin 256 → EReal) (V : Fin 256 → Fin 128 → EReal) (i : Fin 256) (h : Fin 128) : EReal :=
  ∑ j : Fin 256, Ideal.div (S i j) (max (∑ k : Fin 256, max (S i k) (-(S i k))) e12) * V j h

/-- The whole layer for one slab, with the Jensen–Shannon table a parameter. -/
def layer (js : (Fin 256 → EReal) → (Fin 256 → EReal) → EReal) (X Wq Wk : Fin 256 → Fin 256 → EReal)
    (Wv : Fin 128 → Fin 256 → EReal) (i : Fin 256) (h : Fin 128) : EReal :=
  attnOut (score fun i j => js (rho X Wq i) (rho X Wk j)) (val X Wv) i h

/-! ## The literals are reals -/

theorem e12_pos : ∃ r : ℝ, 0 < r ∧ e12 = (r : EReal) := by
  refine ⟨(2 ^ 23 + 0x0CBCCC : ℕ) * (2 : ℝ) ^ ((87 : ℤ) - 127 - 23), by positivity, ?_⟩
  simp [e12, Ideal.ofBits, Ideal.ieee]

theorem e10_pos : ∃ r : ℝ, 0 < r ∧ e10 = (r : EReal) := by
  refine ⟨(2 ^ 23 + 0x5BE6FF : ℕ) * (2 : ℝ) ^ ((93 : ℤ) - 127 - 23), by positivity, ?_⟩
  simp [e10, Ideal.ofBits, Ideal.ieee]

theorem hf_pos : ∃ r : ℝ, 0 < r ∧ hf = (r : EReal) := by
  refine ⟨(2 ^ 23 + 0 : ℕ) * (2 : ℝ) ^ ((126 : ℤ) - 127 - 23), by positivity, ?_⟩
  simp [hf, Ideal.ofBits, Ideal.ieee]

/-! ## The layer over the argument arrays -/

/-- Batch slab b of the input, and a two-axis array, by coordinates. -/
def slab (x : (⟨3, ![4, 256, 256]⟩ : Shape).Idx → EReal) (b : Fin 4) : Fin 256 → Fin 256 → EReal := fun r e => x (ix3 b r e)
def mat {n m : ℕ} (w : (⟨2, ![n, m]⟩ : Shape).Idx → EReal) : Fin n → Fin m → EReal := fun f e => w (ix2 f e)

/-- The result array: entry (b, i, h) is the layer of slab b at (i, h). -/
def G (js : (Fin 256 → EReal) → (Fin 256 → EReal) → EReal) (x0 : (⟨3, ![4, 256, 256]⟩ : Shape).Idx → EReal)
    (x1 : (⟨2, ![128, 256]⟩ : Shape).Idx → EReal) (x2 x3 : (⟨2, ![256, 256]⟩ : Shape).Idx → EReal) :
    (⟨3, ![4, 256, 128]⟩ : Shape).Idx → EReal :=
  fun i => layer js (slab x0 (i 0)) (mat x2) (mat x3) (mat x1) (i 1) (i 2)

/-! ## Sums of reals, quotients of reals -/

theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem div_pos_coe (x y : ℝ) (hy : 0 < y) : Ideal.div (x : EReal) (y : EReal) = ((x / y : ℝ) : EReal) := by
  rw [Ideal.div_coe hy.ne', ← EReal.coe_mul, mul_one_div]

theorem log_pos_coe (x : ℝ) (hx : 0 < x) : Ideal.log (x : EReal) = ((Real.log x : ℝ) : EReal) := by
  rw [Ideal.log_coe, if_neg (not_le.mpr hx)]

/-! ## A row of rho is a row of nonnegative reals -/

theorem rho_real (X W : Fin 256 → Fin 256 → EReal) (hX : ∀ r e, IsReal (X r e)) (hW : ∀ f e, IsReal (W f e))
    (r f : Fin 256) : ∃ p : ℝ, 0 ≤ p ∧ rho X W r f = (p : EReal) := by
  choose x hx using hX
  choose w hw using hW
  obtain rfl : X = fun r e => ((x r e : ℝ) : EReal) := funext fun r => funext fun e => hx r e
  obtain rfl : W = fun f e => ((w f e : ℝ) : EReal) := funext fun f => funext fun e => hw f e
  obtain ⟨r12, h12, he12⟩ := e12_pos
  obtain ⟨r10, h10, he10⟩ := e10_pos
  have hpsi : ∀ r e, psi (fun r e => ((x r e : ℝ) : EReal)) r e
      = ((x r e / (Real.sqrt (∑ k, x r k * x r k) + r12) : ℝ) : EReal) := by
    intro r e
    have hs : 0 ≤ ∑ k, x r k * x r k := Finset.sum_nonneg fun k _ => mul_self_nonneg _
    unfold psi
    simp only [← EReal.coe_mul, coe_sum]
    rw [Ideal.sqrt_coe, if_neg (not_lt.mpr hs), he12, ← EReal.coe_add,
      div_pos_coe _ _ (add_pos_of_nonneg_of_pos (Real.sqrt_nonneg _) h12)]
  have hamp : ∀ r f, amp (fun r e => ((x r e : ℝ) : EReal)) (fun f e => ((w f e : ℝ) : EReal)) r f
      = ((∑ e, x r e / (Real.sqrt (∑ k, x r k * x r k) + r12) * w f e : ℝ) : EReal) := by
    intro r f
    unfold amp
    simp only [hpsi, ← EReal.coe_mul, coe_sum]
  set a : Fin 256 → Fin 256 → ℝ := fun r f => ∑ e, x r e / (Real.sqrt (∑ k, x r k * x r k) + r12) * w f e with ha
  have hs : 0 ≤ ∑ g, a r g * a r g := Finset.sum_nonneg fun k _ => mul_self_nonneg _
  refine ⟨a r f * a r f / ((∑ g, a r g * a r g) + r10), div_nonneg (mul_self_nonneg _) (by linarith), ?_⟩
  unfold rho
  simp only [hamp, ← EReal.coe_mul, coe_sum]
  rw [he10, ← EReal.coe_add, div_pos_coe _ _ (by linarith)]

/-! ## The two spellings of the Jensen–Shannon term agree on nonnegative reals -/

theorem js_eq (a b : Fin 256 → EReal) (ha : ∀ e, ∃ p : ℝ, 0 ≤ p ∧ a e = (p : EReal))
    (hb : ∀ e, ∃ p : ℝ, 0 ≤ p ∧ b e = (p : EReal)) : jsKer a b = jsRef a b := by
  choose p hp0 hp using ha
  choose q hq0 hq using hb
  obtain rfl : a = fun e => ((p e : ℝ) : EReal) := funext hp
  obtain rfl : b = fun e => ((q e : ℝ) : EReal) := funext hq
  obtain ⟨h, hh, hhf⟩ := hf_pos
  obtain ⟨r10, h10, he10⟩ := e10_pos
  have hla : ∀ e, Ideal.log (((p e : ℝ) : EReal) + e10) = ((Real.log (p e + r10) : ℝ) : EReal) := fun e => by
    rw [he10, ← EReal.coe_add, log_pos_coe _ (by have := hp0 e; linarith)]
  have hlb : ∀ e, Ideal.log (((q e : ℝ) : EReal) + e10) = ((Real.log (q e + r10) : ℝ) : EReal) := fun e => by
    rw [he10, ← EReal.coe_add, log_pos_coe _ (by have := hq0 e; linarith)]
  have hlm : ∀ e, lm (fun e => ((p e : ℝ) : EReal)) (fun e => ((q e : ℝ) : EReal)) e
      = ((Real.log (h * (p e + q e) + r10) : ℝ) : EReal) := fun e => by
    unfold lm
    rw [hhf, he10, ← EReal.coe_add, ← EReal.coe_mul, ← EReal.coe_add,
      log_pos_coe _ (by have := hp0 e; have := hq0 e; have : 0 ≤ h * (p e + q e) := mul_nonneg hh.le (by linarith); linarith)]
  unfold jsKer jsRef ent
  simp only [hla, hlb, hlm, hhf, ← EReal.coe_mul, ← EReal.coe_sub, ← EReal.coe_add, coe_sum]
  congr 1
  simp only [mul_sub, Finset.sum_sub_distrib]
  ring

end Cert.Spec

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibAxes.lean ====
/-
  Layout operations of rank-3 tiles read at an index given by coordinates.

  A tile `[a, b, c]` whose two leading axes are merged into rows, `[a * b, c]`, keeps the row-major position:
  row `ρ = i * b + j` of the merged array is the fibre `(i, j, ·)` of the tile, and back. A unit axis put in the
  middle of a matrix, `[a, c] → [a, 1, c]`, or two in front of a vector, `[c] → [1, 1, c]`, moves no element.
  A broadcast to `[a, b, c]` from `[a, 1, c]`, `[1, b, c]` or `[1, 1, c]` reads the operand at the coordinates of
  its non-unit axes and at `0` on its unit axes.

  Each lemma states one such operation at an index written `ixN …`, for any element type and any sizes, so that it
  applies to a printed operation by unification; the merged row is a variable `ρ` with its value as a hypothesis.
-/
import Idealize.ShloMosaic.Lib.Pipeline.Value
import Idealize.ShloMosaic.Lib.ValueIdx

namespace Cert.LibAxes

open Idealize.ShloMosaic Idealize.ShloMosaic.ValueIdx

variable {α : Type}

/-! ## Unit axes added by a shape cast -/

/-- An `[a, c]` array cast to `[a, 1, c]` reads, at `(i, u, k)`, the operand at `(i, k)`: the unit axis in the middle
    contributes nothing to the row-major position. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (k : Fin c) :
    shapeCast ⟨3, ![a, 1, c]⟩ x h (ix3 i u k) = x (ix2 i k) :=
  shapeCast_apply x h _ _ (by
    have hu : u.val = 0 := by omega
    rw [Shape.rowMajor_val_three, Shape.rowMajor_val_two]
    show i.val * c + k.val = (i.val * 1 + u.val) * c + k.val
    rw [hu, Nat.mul_one, Nat.add_zero])

/-- A `[c]` vector cast to `[1, 1, c]` reads, at `(u, v, k)`, the operand at `k`. -/
theorem shapeCast_c_11c_apply {c : ℕ} (x : (⟨1, ![c]⟩ : Shape).Idx → α)
    (h : (⟨1, ![c]⟩ : Shape).ShapeCasts ⟨3, ![1, 1, c]⟩) (u v : Fin 1) (k : Fin c) :
    shapeCast ⟨3, ![1, 1, c]⟩ x h (ix3 u v k) = x (ix1 k) :=
  shapeCast_apply x h _ _ (by
    have hu : u.val = 0 := by omega
    have hv : v.val = 0 := by omega
    rw [Shape.rowMajor_val_three, Shape.rowMajor_val_one]
    show k.val = (u.val * 1 + v.val) * c + k.val
    rw [hu, hv]
    omega)

/-! ## Two leading axes merged into rows, and split again -/

/-- An `[a, b, c]` tile cast to `[n, c]` (`n = a * b` rows) reads, at `(ρ, k)` with `ρ = i * b + j`, the tile at
    `(i, j, k)`: both positions are `(i * b + j) * c + k`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (ρ : Fin n)
    (hρ : ρ.val = i.val * b + j.val) :
    shapeCast ⟨2, ![n, c]⟩ x h (ix2 ρ k) = x (ix3 i j k) :=
  shapeCast_apply x h _ _ (by
    rw [Shape.rowMajor_val_three, Shape.rowMajor_val_two]
    show (i.val * b + j.val) * c + k.val = ρ.val * c + k.val
    rw [hρ])

/-- An `[n, c]` array of `n = a * b` rows cast to `[a, b, c]` reads, at `(i, j, k)`, row `ρ = i * b + j` at `k`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (ρ : Fin n)
    (hρ : ρ.val = i.val * b + j.val) :
    shapeCast ⟨3, ![a, b, c]⟩ x h (ix3 i j k) = x (ix2 ρ k) :=
  shapeCast_apply x h _ _ (by
    rw [Shape.rowMajor_val_three, Shape.rowMajor_val_two]
    show ρ.val * c + k.val = (i.val * b + j.val) * c + k.val
    rw [hρ])

/-! ## Broadcasts to a rank-3 tile -/

/-- An `[a, 1, c]` array broadcast to `[a, b, c]` reads, at `(i, j, k)`, the operand at `(i, 0, k)`: every `j` sees
    the same row. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array broadcast to `[a, b, c]` reads, at `(i, j, k)`, the operand at `(0, j, k)`: every `i` sees
    the same matrix. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

/-- A `[1, 1, c]` array broadcast to `[a, b, c]` reads, at `(i, j, k)`, the operand at `(0, 0, k)`: one row for the
    whole tile. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

end Cert.LibAxes
-- ==== Proof.LibStackReduce.lean ====
/-
  A stack of matrices read one coordinate at a time: one-axis sums and maxima on the extended reals.

  General in every extent and in the float format. An index of a rank-3 stack `[T, B, C]` is `ix3 p u w` (member, row,
  column). Reducing along the LAST axis at `(p, u)` ranges over the columns of row `u` of member `p`; along the MIDDLE axis
  at `(p, w)` over the rows of column `w`; reducing a rank-2 array `[T, B]` along its second axis at `p` over row `p`'s
  entries. `lift_last` / `lift_mid` / `lift_row` say which source index lies over a result index (for any one-axis reduction's
  own `Shape.Reduces.lift`, a kernel's or a host program's); `sum_last` / `sum_mid` / `sum_row` read a kernel's
  `vector.multi_reduction <add>` as a `∑` over that axis's coordinate, `max_last` / `max_mid` a `<maximumf>` one as the fold of
  `max` from the accumulator's value. Apply them in term mode with every argument explicit
  (`refine (sum_last x acc h hφ hacc p u).trans ?_`): the evidence that the accumulator is the neutral element type-checks
  only after unfolding, so `rw` and `simp` do not find the pattern in a printed term.
-/
import Idealize.ShloMosaic.Lib.ValueIdx
import Idealize.ShloMosaic.Lib.Pipeline.Value
import Idealize.ShloMosaic.PureOps.Ideal.Laws

noncomputable section

namespace Cert.StackReduce

open Idealize.ShloMosaic Idealize.ShloMosaic.ValueIdx

section reductions

variable {φ : FTy} {T B C : ℕ}

/-- The source index over `(p, u)` with `k` on the last axis. -/
theorem lift_last (h : (⟨3, ![T, B, C]⟩ : Shape).Reduces [(2 : Fin 3)] ⟨2, ![T, B]⟩) (p : Fin T) (u : Fin B) (k : Fin C) :
    h.lift (ix2 p u) k = ix3 p u k :=
  funext fun c => Fin.ext (by match c with | ⟨0, _⟩ => rfl | ⟨1, _⟩ => rfl | ⟨2, _⟩ => rfl)

/-- The source index over `(p, w)` with `k` on the middle axis. -/
theorem lift_mid (h : (⟨3, ![T, B, C]⟩ : Shape).Reduces [(1 : Fin 3)] ⟨2, ![T, C]⟩) (p : Fin T) (w : Fin C) (k : Fin B) :
    h.lift (ix2 p w) k = ix3 p k w :=
  funext fun c => Fin.ext (by match c with | ⟨0, _⟩ => rfl | ⟨1, _⟩ => rfl | ⟨2, _⟩ => rfl)

/-- The source index over row `p` with `k` on the second axis. -/
theorem lift_row (h : (⟨2, ![T, B]⟩ : Shape).Reduces [(1 : Fin 2)] ⟨1, ![T]⟩) (p : Fin T) (k : Fin B) :
    h.lift (ix1 p) k = ix2 p k :=
  funext fun c => Fin.ext (by match c with | ⟨0, _⟩ => rfl | ⟨1, _⟩ => rfl)

theorem sum_last (x : FVec Ideal ⟨3, ![T, B, C]⟩ φ) (acc : BitVec φ.bits)
    (h : (⟨3, ![T, B, C]⟩ : Shape).Reduces [(2 : Fin 3)] ⟨2, ![T, B]⟩) (hφ : FKind.Formats φ)
    (hacc : acc = FKind.add.neutral φ hφ) (p : Fin T) (u : Fin B) :
    multiReduction .add [(2 : Fin 3)] ⟨2, ![T, B]⟩ x acc h hφ hacc (ix2 p u) = ∑ w : Fin C, x (ix3 p u w) :=
  (Ideal.multiReduction_add_single x acc h hφ hacc (ix2 p u)).trans
    (Finset.sum_congr rfl fun k _ => congrArg x (lift_last h p u k))

theorem sum_mid (x : FVec Ideal ⟨3, ![T, B, C]⟩ φ) (acc : BitVec φ.bits)
    (h : (⟨3, ![T, B, C]⟩ : Shape).Reduces [(1 : Fin 3)] ⟨2, ![T, C]⟩) (hφ : FKind.Formats φ)
    (hacc : acc = FKind.add.neutral φ hφ) (p : Fin T) (w : Fin C) :
    multiReduction .add [(1 : Fin 3)] ⟨2, ![T, C]⟩ x acc h hφ hacc (ix2 p w) = ∑ u : Fin B, x (ix3 p u w) :=
  (Ideal.multiReduction_add_single x acc h hφ hacc (ix2 p w)).trans
    (Finset.sum_congr rfl fun k _ => congrArg x (lift_mid h p w k))

theorem sum_row (x : FVec Ideal ⟨2, ![T, B]⟩ φ) (acc : BitVec φ.bits)
    (h : (⟨2, ![T, B]⟩ : Shape).Reduces [(1 : Fin 2)] ⟨1, ![T]⟩) (hφ : FKind.Formats φ)
    (hacc : acc = FKind.add.neutral φ hφ) (p : Fin T) :
    multiReduction .add [(1 : Fin 2)] ⟨1, ![T]⟩ x acc h hφ hacc (ix1 p) = ∑ u : Fin B, x (ix2 p u) :=
  (Ideal.multiReduction_add_single x acc h hφ hacc (ix1 p)).trans
    (Finset.sum_congr rfl fun k _ => congrArg x (lift_row h p k))

theorem max_last (x : FVec Ideal ⟨3, ![T, B, C]⟩ φ) (acc : BitVec φ.bits)
    (h : (⟨3, ![T, B, C]⟩ : Shape).Reduces [(2 : Fin 3)] ⟨2, ![T, B]⟩) (hφ : FKind.Formats φ)
    (hacc : acc = FKind.maximumf.neutral φ hφ) (p : Fin T) (u : Fin B) :
    multiReduction .maximumf [(2 : Fin 3)] ⟨2, ![T, B]⟩ x acc h hφ hacc (ix2 p u)
      = (Finset.univ : Finset (Fin C)).fold max (Ideal.ofBits φ acc) (fun w => x (ix3 p u w)) :=
  (Ideal.multiReduction_maximumf_single x acc h hφ hacc (ix2 p u)).trans
    (congrArg (fun f => (Finset.univ : Finset (Fin C)).fold max (Ideal.ofBits φ acc) f)
      (funext fun k => congrArg x (lift_last h p u k)))

theorem max_mid (x : FVec Ideal ⟨3, ![T, B, C]⟩ φ) (acc : BitVec φ.bits)
    (h : (⟨3, ![T, B, C]⟩ : Shape).Reduces [(1 : Fin 3)] ⟨2, ![T, C]⟩) (hφ : FKind.Formats φ)
    (hacc : acc = FKind.maximumf.neutral φ hφ) (p : Fin T) (w : Fin C) :
    multiReduction .maximumf [(1 : Fin 3)] ⟨2, ![T, C]⟩ x acc h hφ hacc (ix2 p w)
      = (Finset.univ : Finset (Fin B)).fold max (Ideal.ofBits φ acc) (fun u => x (ix3 p u w)) :=
  (Ideal.multiReduction_maximumf_single x acc h hφ hacc (ix2 p w)).trans
    (congrArg (fun f => (Finset.univ : Finset (Fin B)).fold max (Ideal.ofBits φ acc) f)
      (funext fun k => congrArg x (lift_mid h p w k)))

end reductions

end Cert.StackReduce

end
-- ==== Proof.LibMatmulNN.lean ====
/-
  A matrix product whose left operand is contracted on its SECOND axis and whose right operand on its FIRST (an M×K
  array times a K×N array, the plain row-by-column product), accumulated into zero, read at one entry of the result on
  the extended reals: entry (i, j) is the sum over k of left (i, k) · right (k, j).  Every extent and both operand
  formats are arbitrary; the dimension record is any record with that contraction, its structural facts passed as
  hypotheses (four coordinate facts of its index maps, the contraction's rank and size), each closed by rfl or by
  unfolding at a printed record.
-/
import Idealize.ShloMosaic.PureOps.Ideal.Laws
import Idealize.ShloMosaic.Lib.ValueIdx

noncomputable section

open scoped BigOperators

namespace Cert.MatmulNN

open Idealize.ShloMosaic Idealize.ShloMosaic.ValueIdx

/-- The left operand contracted on its SECOND axis and the right on its FIRST, into a zero accumulator:
    out (i, j) = Σ k, A (i, k) · B (k, j). -/
theorem matmul_nn_apply {M K N : ℕ} {φ₁ φ₂ : FTy} (d : DotDims ⟨2, ![M, K]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (q ⟨0, by omega⟩).val) (hr1 : ∀ j q, (d.rhsIdx j q 1).val = (j 1).val)
    (A : FVec Ideal ⟨2, ![M, K]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 i k) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.MatmulNN

end
-- ==== Proof.Payloads.lean ====
/-
  The body's pure payloads read at an entry, on the extended reals.

  Notation: X r e is entry (0, r, e) of the loaded slab. Each payload is a chain of pointwise operations, row sums kept
  as a column or as a row, and products of two-axis arrays; read at one entry it is the matching term of the layer:
  the slab itself, a token divided by its norm plus 1e-12, the squared projections divided by their total plus 1e-10,
  the value projection, the entropy sums Σ P log (P + 1e-10) of a row, and a row of scores divided by the larger of its
  L1 norm and 1e-12 and multiplied with the value projection.
-/
import proofs.«117373_j30442728194141_1_alg».proof.Proof.Gen.KernelIdeal.Skeleton
import proofs.«117373_j30442728194141_1_alg».proof.Proof.Spec
import proofs.«117373_j30442728194141_1_alg».proof.Proof.LibRowOps
import proofs.«117373_j30442728194141_1_alg».proof.Proof.LibAxes
import proofs.«117373_j30442728194141_1_alg».proof.Proof.LibStackReduce
import proofs.«117373_j30442728194141_1_alg».proof.Proof.LibMatmulNN
import Idealize.ShloMosaic.Lib.ValueLayout
import Idealize.ShloMosaic.Lib.Pipeline.Value
import Idealize.ShloMosaic.PureOps.Ideal.Laws

set_option maxRecDepth 16384

noncomputable section

namespace Cert.Pay

open Cert.KernelIdeal Cert.KernelIdeal.Gen Idealize.ShloMosaic Idealize.ShloMosaic.ValueIdx Cert.MatmulNN

/-! ## Named sub-blocks -/

/-- The sum of each row of a 256 × 256 array, kept as a column. -/
def rowsum (X : FVec Ideal S256x256 .f32) : FVec Ideal S256x1 .f32 :=
  shapeCast S256x1 (multiReduction .add [1] S256 X 0x00000000#32 reduces_S256x256_S256 (.inl rfl) rfl) shapeCasts_S256_S256x1

theorem rowsum_apply (X : FVec Ideal S256x256 .f32) (r : Fin 256) (u : Fin 1) :
    rowsum X (ix2 r u) = ∑ k : Fin 256, X (ix2 r k) := by
  unfold rowsum
  rw [Cert.RowOps.shapeCast_a_a1_apply]
  exact Cert.RowOps.rowSum_apply _ _ _ _ _ r

/-! ## The slab, and the constant table -/

theorem pay3_apply (v0 : Vec Ideal S1x256x256 .f32) (r e : Fin 256) :
    k0_pay3 (F := Ideal) v0 (ix2 r e) = v0 (ix3 (0 : Fin 1) r e) :=
  shapeCast_1ab_ab_apply v0 _ r e

theorem pay11_apply (y : S256x256.Idx) : k0_pay11 (F := Ideal) y = Ideal.ofBits .f32 0x00000000#32 := by
  unfold k0_pay11
  rw [shapeCast_self]
  rfl

/-! ## A token divided by its norm plus 1e-12 -/

theorem pay5_eq (v0 : Vec Ideal S1x256x256 .f32) :
    k0_pay5 (F := Ideal) v0
      = truncf .bf16 (divf (k0_pay3 v0) (broadcastTo S256x256
          (addf (sqrt (rowsum (mulf (k0_pay3 v0) (k0_pay3 v0)))) (broadcast S256x1 (Scalar.ofBits .f32 0x2B8CBCCC#32)))
          broadcasts_S256x1_S256x256)) bitsLt_bf16_f32 := rfl

theorem pay5_apply (v0 : Vec Ideal S1x256x256 .f32) (r e : Fin 256) :
    k0_pay5 (F := Ideal) v0 (ix2 r e) = Spec.psi (fun r e => v0 (ix3 (0 : Fin 1) r e)) r e := by
  rw [pay5_eq]
  simp only [truncf_apply, divf_apply, Cert.RowOps.broadcastTo_a1_ab_apply, addf_apply, Idealize.ShloMosaic.sqrt,
    rowsum_apply, mulf_apply, pay3_apply, broadcast_apply]
  rfl

/-! ## The three products of two-axis arrays -/

/-- The slab times the transposed value matrix: out (i, j) = Σ k, A (i, k) · B (j, k). -/
theorem dotV_apply {φ₁ φ₂ : FTy} (A : FVec Ideal S256x256 φ₁) (B : FVec Ideal S128x256 φ₂) (i : Fin 256) (j : Fin 128) :
    matmul dot_S256x256_S128x256_S256x128_1_1_0_0_n_n none A B (constant S256x128 .f32 0x00000000#32) (ix2 i j) = ∑ k : Fin 256, A (ix2 i k) * B (ix2 j k) :=
  Cert.RowOps.matmul_nt_apply dot_S256x256_S128x256_S256x128_1_1_0_0_n_n none rfl rfl
    (fun j q => by
      unfold DotDims.lhsIdx
      rw [dif_neg (show ¬(0 : Fin S256x256.rank) ∈ dot_S256x256_S128x256_S256x128_1_1_0_0_n_n.lhsBatch by decide),
        dif_pos (show (0 : Fin S256x256.rank) ∈ dot_S256x256_S128x256_S256x128_1_1_0_0_n_n.lhsNonContracting by decide)]
      rfl)
    (fun j q => dot_S256x256_S128x256_S256x128_1_1_0_0_n_n.lhsIdx_val_of_single rfl j q)
    (fun j q => by
      unfold DotDims.rhsIdx
      rw [dif_neg (show ¬(0 : Fin S128x256.rank) ∈ dot_S256x256_S128x256_S256x128_1_1_0_0_n_n.rhsBatch by decide),
        dif_pos (show (0 : Fin S128x256.rank) ∈ dot_S256x256_S128x256_S256x128_1_1_0_0_n_n.rhsNonContracting by decide)]
      rfl)
    (fun j q => dot_S256x256_S128x256_S256x128_1_1_0_0_n_n.rhsIdx_val_of_single rfl j q)
    A B i j

/-- The normalised slab times a transposed weight matrix: out (i, j) = Σ k, A (i, k) · B (j, k). -/
theorem dotW_apply {φ₁ φ₂ : FTy} (A : FVec Ideal S256x256 φ₁) (B : FVec Ideal S256x256 φ₂) (i j : Fin 256) :
    matmul dot_S256x256_S256x256_S256x256_1_1_0_0_n_n none A B (constant S256x256 .f32 0x00000000#32) (ix2 i j) = ∑ k : Fin 256, A (ix2 i k) * B (ix2 j k) :=
  Cert.RowOps.matmul_nt_apply dot_S256x256_S256x256_S256x256_1_1_0_0_n_n none rfl rfl
    (fun j q => by
      unfold DotDims.lhsIdx
      rw [dif_neg (show ¬(0 : Fin S256x256.rank) ∈ dot_S256x256_S256x256_S256x256_1_1_0_0_n_n.lhsBatch by decide),
        dif_pos (show (0 : Fin S256x256.rank) ∈ dot_S256x256_S256x256_S256x256_1_1_0_0_n_n.lhsNonContracting by decide)]
      rfl)
    (fun j q => dot_S256x256_S256x256_S256x256_1_1_0_0_n_n.lhsIdx_val_of_single rfl j q)
    (fun j q => by
      unfold DotDims.rhsIdx
      rw [dif_neg (show ¬(0 : Fin S256x256.rank) ∈ dot_S256x256_S256x256_S256x256_1_1_0_0_n_n.rhsBatch by decide),
        dif_pos (show (0 : Fin S256x256.rank) ∈ dot_S256x256_S256x256_S256x256_1_1_0_0_n_n.rhsNonContracting by decide)]
      rfl)
    (fun j q => dot_S256x256_S256x256_S256x256_1_1_0_0_n_n.rhsIdx_val_of_single rfl j q)
    A B i j

/-- The normalised scores times the value projection: out (i, j) = Σ k, A (i, k) · B (k, j). -/
theorem dotA_apply {φ₁ φ₂ : FTy} (A : FVec Ideal S256x256 φ₁) (B : FVec Ideal S256x128 φ₂) (i : Fin 256) (j : Fin 128) :
    matmul dot_S256x256_S256x128_S256x128_1_0_0_1_n_n none A B (constant S256x128 .f32 0x00000000#32) (ix2 i j) = ∑ k : Fin 256, A (ix2 i k) * B (ix2 k j) :=
  matmul_nn_apply dot_S256x256_S256x128_S256x128_1_0_0_1_n_n none rfl rfl
    (fun j q => by
      unfold DotDims.lhsIdx
      rw [dif_neg (show ¬(0 : Fin S256x256.rank) ∈ dot_S256x256_S256x128_S256x128_1_0_0_1_n_n.lhsBatch by decide),
        dif_pos (show (0 : Fin S256x256.rank) ∈ dot_S256x256_S256x128_S256x128_1_0_0_1_n_n.lhsNonContracting by decide)]
      rfl)
    (fun j q => dot_S256x256_S256x128_S256x128_1_0_0_1_n_n.lhsIdx_val_of_single rfl j q)
    (fun j q => dot_S256x256_S256x128_S256x128_1_0_0_1_n_n.rhsIdx_val_of_single rfl j q)
    (fun j q => by
      unfold DotDims.rhsIdx
      rw [dif_neg (show ¬(1 : Fin S256x128.rank) ∈ dot_S256x256_S256x128_S256x128_1_0_0_1_n_n.rhsBatch by decide),
        dif_pos (show (1 : Fin S256x128.rank) ∈ dot_S256x256_S256x128_S256x128_1_0_0_1_n_n.rhsNonContracting by decide)]
      rfl)
    A B i j

/-! ## The value projection -/

theorem pay4_apply (v0 : Vec Ideal S1x256x256 .f32) (v10 : Vec Ideal S128x256 .f32) (r : Fin 256) (h : Fin 128) :
    k0_pay4 (F := Ideal) v0 v10 (ix2 r h) = Spec.val (fun r e => v0 (ix3 (0 : Fin 1) r e)) (Spec.mat v10) r h := by
  unfold k0_pay4
  rw [truncf_apply]
  refine (dotV_apply _ _ r h).trans ?_
  simp only [truncf_apply, pay3_apply]
  rfl

/-! ## The squared projections divided by their total plus 1e-10 -/

/-- The normalised slab projected on the rows of a weight matrix. -/
def proj (v0 : Vec Ideal S1x256x256 .f32) (W : Vec Ideal S256x256 .f32) : FVec Ideal S256x256 .f32 :=
  matmul dot_S256x256_S256x256_S256x256_1_1_0_0_n_n none (k0_pay5 v0) (truncf .bf16 W bitsLt_bf16_f32) (constant S256x256 .f32 0x00000000#32)

theorem proj_apply (v0 : Vec Ideal S1x256x256 .f32) (W : Vec Ideal S256x256 .f32) (r f : Fin 256) :
    proj v0 W (ix2 r f) = Spec.amp (fun r e => v0 (ix3 (0 : Fin 1) r e)) (Spec.mat W) r f := by
  unfold proj
  refine (dotW_apply _ _ r f).trans ?_
  simp only [truncf_apply, pay5_apply]
  rfl

/-- The squared entries of an array divided by their row's total plus 1e-10. -/
def normSq (A : FVec Ideal S256x256 .f32) : FVec Ideal S256x256 .f32 :=
  divf (mulf A A) (broadcastTo S256x256
    (addf (rowsum (mulf A A)) (broadcast S256x1 (Scalar.ofBits .f32 0x2EDBE6FF#32))) broadcasts_S256x1_S256x256)

theorem normSq_apply (A : FVec Ideal S256x256 .f32) (r f : Fin 256) :
    normSq A (ix2 r f) = Ideal.div (A (ix2 r f) * A (ix2 r f)) ((∑ g : Fin 256, A (ix2 r g) * A (ix2 r g)) + Spec.e10) := by
  unfold normSq
  simp only [divf_apply, mulf_apply, Cert.RowOps.broadcastTo_a1_ab_apply, addf_apply, rowsum_apply, broadcast_apply]
  rfl

theorem pay6_eq (v0 : Vec Ideal S1x256x256 .f32) (v11 : Vec Ideal S256x256 .f32) :
    k0_pay6 (F := Ideal) v0 v11 = normSq (proj v0 v11) := rfl

theorem pay7_eq (v0 : Vec Ideal S1x256x256 .f32) (v12 : Vec Ideal S256x256 .f32) :
    k0_pay7 (F := Ideal) v0 v12 = normSq (proj v0 v12) := rfl

theorem pay6_apply (v0 : Vec Ideal S1x256x256 .f32) (v11 : Vec Ideal S256x256 .f32) (r f : Fin 256) :
    k0_pay6 (F := Ideal) v0 v11 (ix2 r f) = Spec.rho (fun r e => v0 (ix3 (0 : Fin 1) r e)) (Spec.mat v11) r f := by
  rw [pay6_eq, normSq_apply]
  simp only [proj_apply]
  rfl

theorem pay7_apply (v0 : Vec Ideal S1x256x256 .f32) (v12 : Vec Ideal S256x256 .f32) (r f : Fin 256) :
    k0_pay7 (F := Ideal) v0 v12 (ix2 r f) = Spec.rho (fun r e => v0 (ix3 (0 : Fin 1) r e)) (Spec.mat v12) r f := by
  rw [pay7_eq, normSq_apply]
  simp only [proj_apply]
  rfl

/-! ## The entropy sums Σ P log (P + 1e-10) of a row -/

/-- P · log (P + 1e-10), entry by entry. -/
def plogp (P : FVec Ideal S256x256 .f32) : FVec Ideal S256x256 .f32 :=
  mulf P (log (addf P (broadcast S256x256 (Scalar.ofBits .f32 0x2EDBE6FF#32))))

theorem plogp_apply (P : FVec Ideal S256x256 .f32) (y : S256x256.Idx) :
    plogp P y = P y * Ideal.log (P y + Spec.e10) := rfl

theorem pay8_eq (v0 : Vec Ideal S1x256x256 .f32) (v11 : Vec Ideal S256x256 .f32) :
    k0_pay8 (F := Ideal) v0 v11 = plogp (k0_pay6 v0 v11) := rfl

theorem pay9_eq (v39 : FVec Ideal S256x256 .f32) : k0_pay9 (F := Ideal) v39 = rowsum v39 := rfl

theorem pay9_apply (v0 : Vec Ideal S1x256x256 .f32) (v11 : Vec Ideal S256x256 .f32) (r : Fin 256) :
    k0_pay9 (F := Ideal) (k0_pay8 v0 v11) (ix2 r (0 : Fin 1))
      = Spec.ent (fun e => k0_pay6 (F := Ideal) v0 v11 (ix2 r e)) := by
  rw [pay9_eq, rowsum_apply, pay8_eq]
  rfl

theorem pay10_eq (v35 : FVec Ideal S256x256 .f32) :
    k0_pay10 (F := Ideal) v35
      = shapeCast S1x256 (multiReduction .add [1] S256 (plogp v35) 0x00000000#32 reduces_S256x256_S256 (.inl rfl) rfl)
          shapeCasts_S256_S1x256 := rfl

theorem pay10_apply (v35 : FVec Ideal S256x256 .f32) (j : Fin 256) :
    k0_pay10 (F := Ideal) v35 (ix2 (0 : Fin 1) j) = Spec.ent (fun e => v35 (ix2 j e)) := by
  rw [pay10_eq, shapeCast_a_1a_apply]
  refine (Cert.RowOps.rowSum_apply _ _ _ _ _ j).trans ?_
  rfl

/-! ## A row of scores divided by max (its L1 norm, 1e-12), times the value projection -/

/-- An array divided, row by row, by the larger of the row's L1 norm and 1e-12. -/
def normL1 (S : FVec Ideal S256x256 .f32) : FVec Ideal S256x256 .f32 :=
  divf S (broadcastTo S256x256
    (maximumf (rowsum (absf S)) (broadcast S256x1 (Scalar.ofBits .f32 0x2B8CBCCC#32))) broadcasts_S256x1_S256x256)

theorem normL1_apply (S : FVec Ideal S256x256 .f32) (i j : Fin 256) :
    normL1 S (ix2 i j)
      = Ideal.div (S (ix2 i j)) (max (∑ k : Fin 256, max (S (ix2 i k)) (-(S (ix2 i k)))) Spec.e12) := by
  unfold normL1
  simp only [divf_apply, Cert.RowOps.broadcastTo_a1_ab_apply, maximumf_apply, rowsum_apply, broadcast_apply,
    Idealize.ShloMosaic.absf, Ideal.absf_def]
  rfl

theorem pay2_eq (v16 : FVec Ideal S256x128 .bf16) (S : Vec Ideal S256x256 .f32) :
    k0_pay2 (F := Ideal) v16 S
      = shapeCast S1x256x128 (matmul dot_S256x256_S256x128_S256x128_1_0_0_1_n_n none (truncf .bf16 (normL1 S) bitsLt_bf16_f32) v16
          (constant S256x128 .f32 0x00000000#32)) shapeCasts_S256x128_S1x256x128 := rfl

theorem pay2_apply (v16 : FVec Ideal S256x128 .bf16) (S : Vec Ideal S256x256 .f32) (r : Fin 256) (h : Fin 128) :
    k0_pay2 (F := Ideal) v16 S (ix3 (0 : Fin 1) r h)
      = Spec.attnOut (fun i j => S (ix2 i j)) (fun j h => v16 (ix2 j h)) r h := by
  rw [pay2_eq, shapeCast_ab_1ab_apply]
  refine (dotA_apply _ _ r h).trans ?_
  simp only [truncf_apply, normL1_apply]
  rfl

end Cert.Pay

end
-- ==== Proof.Tile.lean ====
/-
  One (64 query rows) × (128 key rows) tile of the score table, as the body computes it.

  The body cuts 64 rows Pq of rho_q (with their entropies HPq, a column) and 128 rows Qk of rho_k (with their
  entropies HQk, a row), and for the two halves of the 256 features forms the 64 × 128 × 128 stack
  M = log (½ (Pq[:, None, :] + Qk[None, :, :]) + 1e-10), sums Pq · M and Qk · M over the last axis, adds the halves up,
  and stores 1 − (½ (HPq + HQk) − ½ (CP + CQ)) where the global row index is at least the global column index, 0
  elsewhere.  Read at entry (p, q) this is the masked Jensen–Shannon score of row p of Pq against row q of Qk, the
  two half sums joined into one sum over the 256 features.
-/
import proofs.«117373_j30442728194141_1_alg».proof.Proof.Gen.KernelIdeal.Skeleton
import proofs.«117373_j30442728194141_1_alg».proof.Proof.Spec
import proofs.«117373_j30442728194141_1_alg».proof.Proof.LibAxes
import proofs.«117373_j30442728194141_1_alg».proof.Proof.LibStackReduce
import proofs.«117373_j30442728194141_1_alg».proof.Proof.LibRowOps
import Idealize.ShloMosaic.Lib.ValueLayout
import Idealize.ShloMosaic.Lib.Pipeline.Value

set_option maxRecDepth 16384

noncomputable section

namespace Cert.Tile

open Cert.KernelIdeal Cert.KernelIdeal.Gen Idealize.ShloMosaic Idealize.ShloMosaic.ValueIdx

/-- The stack log (½ (Pq[:, None, :] + Qk[None, :, :]) + 1e-10) of the half of the features starting at off. -/
def logMix (off : ℕ) (v52 : FVec Ideal S64x256 .f32) (v54 : FVec Ideal S128x256 .f32)
    (hs1 : S64x256.Slices ![0, off] S64x128) (hs2 : S128x256.Slices ![0, off] S128x128) : FVec Ideal S64x128x128 .f32 :=
  log (addf (mulf (broadcast S64x128x128 (Scalar.ofBits .f32 0x3F000000#32))
      (addf (broadcastTo S64x128x128 (shapeCast S64x1x128 (extractStridedSlice S64x128 ![0, off] v52 hs1) shapeCasts_S64x128_S64x1x128) broadcasts_S64x1x128_S64x128x128)
        (broadcastTo S64x128x128 (shapeCast S1x128x128 (extractStridedSlice S128x128 ![0, off] v54 hs2) shapeCasts_S128x128_S1x128x128) broadcasts_S1x128x128_S64x128x128)))
    (broadcast S64x128x128 (Scalar.ofBits .f32 0x2EDBE6FF#32)))

/-- Σ over that half of Pq · M, a 64 × 128 table. -/
def cpart (off : ℕ) (v52 : FVec Ideal S64x256 .f32) (v54 : FVec Ideal S128x256 .f32)
    (hs1 : S64x256.Slices ![0, off] S64x128) (hs2 : S128x256.Slices ![0, off] S128x128) : FVec Ideal S64x128 .f32 :=
  multiReduction .add [2] S64x128
    (mulf (broadcastTo S64x128x128 (shapeCast S64x1x128 (extractStridedSlice S64x128 ![0, off] v52 hs1) shapeCasts_S64x128_S64x1x128) broadcasts_S64x1x128_S64x128x128)
      (logMix off v52 v54 hs1 hs2)) 0x00000000#32 reduces_S64x128x128_S64x128 (.inl rfl) rfl

/-- Σ over that half of Qk · M. -/
def qpart (off : ℕ) (v52 : FVec Ideal S64x256 .f32) (v54 : FVec Ideal S128x256 .f32)
    (hs1 : S64x256.Slices ![0, off] S64x128) (hs2 : S128x256.Slices ![0, off] S128x128) : FVec Ideal S64x128 .f32 :=
  multiReduction .add [2] S64x128
    (mulf (broadcastTo S64x128x128 (shapeCast S1x128x128 (extractStridedSlice S128x128 ![0, off] v54 hs2) shapeCasts_S128x128_S1x128x128) broadcasts_S1x128x128_S64x128x128)
      (logMix off v52 v54 hs1 hs2)) 0x00000000#32 reduces_S64x128x128_S64x128 (.inl rfl) rfl

/-- The causal mask of the tile whose rows start at q0 and columns at k0. -/
def tmask (q0 k0 : ℕ) : IVec S64x128 1 :=
  cmpi .sge (addi (broadcast S64x128 (BitVec.ofNat 32 q0)) (iota .tc S64x128 32 [0] iota_S64x128_d0_w32))
    (addi (broadcast S64x128 (BitVec.ofNat 32 k0)) (iota .tc S64x128 32 [1] iota_S64x128_d1_w32))

/-- The tile's value before it is stored: the body's operations in the body's order, over the four cuts; q0 and k0
    are the global offsets of the tile's rows and columns. -/
def tileRaw (q0 k0 : ℕ) (v52 : FVec Ideal S64x256 .f32) (v53 : FVec Ideal S64x1 .f32) (v54 : FVec Ideal S128x256 .f32)
    (v55 : FVec Ideal S1x128 .f32) : FVec Ideal S64x128 .f32 :=
  shapeCast S64x128
    (select (tmask q0 k0)
      (subf (broadcast S64x128 (Scalar.ofBits .f32 0x3F800000#32))
        (subf
          (mulf (broadcast S64x128 (Scalar.ofBits .f32 0x3F000000#32))
            (addf (broadcastTo S64x128 v53 broadcasts_S64x1_S64x128) (broadcastTo S64x128 v55 broadcasts_S1x128_S64x128)))
          (mulf (broadcast S64x128 (Scalar.ofBits .f32 0x3F000000#32))
            (addf
              (addf (addf (broadcast S64x128 (Scalar.ofBits .f32 0x00000000#32)) (cpart 0 v52 v54 slices_S64x256_o0_0_S64x128 slices_S128x256_o0_0_S128x128))
                (cpart 128 v52 v54 slices_S64x256_o0_128_S64x128 slices_S128x256_o0_128_S128x128))
              (addf (addf (broadcast S64x128 (Scalar.ofBits .f32 0x00000000#32)) (qpart 0 v52 v54 slices_S64x256_o0_0_S64x128 slices_S128x256_o0_0_S128x128))
                (qpart 128 v52 v54 slices_S64x256_o0_128_S64x128 slices_S128x256_o0_128_S128x128))))))
      (broadcast S64x128 (Scalar.ofBits .f32 0x00000000#32)))
    shapeCasts_S64x128_S64x128

/-! ## The six stored tiles are tileRaw of their cuts: the payloads unfold to the same operations -/

theorem tile_0_0 (v28 v35 v39 : FVec Ideal S256x256 .f32) :
    k0_pay25 (F := Ideal) (k0_pay13 v39) (k0_pay15 v35) (k0_pay19 v28 v35) (k0_pay20 v28 v35) (k0_pay21 v28) (k0_pay22 v35)
        (k0_pay23 v28 v35) k0_pay24
      = tileRaw 0 0 (k0_pay12 v28) (k0_pay13 v39) (k0_pay14 v35) (k0_pay15 v35) := rfl

theorem tile_64_0 (v28 v35 : FVec Ideal S256x256 .f32) (v41 : FVec Ideal S256x1 .f32) (v47 : FVec Ideal S1x256 .f32) :
    k0_pay37 (F := Ideal) (k0_pay35 (k0_pay26 v28) (k0_pay27 v41) (k0_pay28 v35) (k0_pay29 v47) k0_pay30 k0_pay31 (k0_pay32 v28)
        (k0_pay33 v35) (k0_pay34 v28)) (iota .tc S64x128 32 [0] iota_S64x128_d0_w32) k0_pay36
      = tileRaw 64 0 (k0_pay26 v28) (k0_pay27 v41) (k0_pay28 v35) (k0_pay29 v47) := rfl

theorem tile_128_0 (v28 v35 : FVec Ideal S256x256 .f32) (v41 : FVec Ideal S256x1 .f32) (v47 : FVec Ideal S1x256 .f32) :
    k0_pay50 (F := Ideal) (k0_pay39 v41) (k0_pay41 v47) (k0_pay45 v28 v35) (k0_pay46 v28 v35) (k0_pay47 v28) (k0_pay48 v35)
        (k0_pay49 v28 v35)
      = tileRaw 128 0 (k0_pay38 v28) (k0_pay39 v41) (k0_pay40 v35) (k0_pay41 v47) := rfl

theorem tile_128_128 (v28 v35 : FVec Ideal S256x256 .f32) (v41 : FVec Ideal S256x1 .f32) (v47 : FVec Ideal S1x256 .f32) :
    k0_pay60 (F := Ideal) (k0_pay58 (k0_pay38 v28) (k0_pay39 v41) (k0_pay51 v35) (k0_pay52 v47) k0_pay53 k0_pay54
        (k0_pay55 (k0_pay38 v28)) (k0_pay56 v35) (k0_pay57 v35 (k0_pay38 v28)) (FloatOps.ofBits .f32 0x2EDBE6FF#32)) k0_pay59
      = tileRaw 128 128 (k0_pay38 v28) (k0_pay39 v41) (k0_pay51 v35) (k0_pay52 v47) := rfl

theorem tile_192_0 (v28 v35 : FVec Ideal S256x256 .f32) (v41 : FVec Ideal S256x1 .f32) (v47 : FVec Ideal S1x256 .f32) :
    k0_pay73 (F := Ideal) (k0_pay62 v41) (k0_pay64 v47) (k0_pay68 v28 v35) (k0_pay70 v35) (k0_pay71 v28 v35) (k0_pay72 v28 v35)
      = tileRaw 192 0 (k0_pay61 v28) (k0_pay62 v41) (k0_pay63 v35) (k0_pay64 v47) := rfl

theorem tile_192_128 (v28 v35 : FVec Ideal S256x256 .f32) (v41 : FVec Ideal S256x1 .f32) (v47 : FVec Ideal S1x256 .f32) :
    k0_pay1 (F := Ideal) (k0_pay82 (k0_pay61 v28) (k0_pay62 v41) (k0_pay74 v35) (k0_pay75 v47) k0_pay76 k0_pay77 (k0_pay79 v35)
        (k0_pay80 v35 (k0_pay61 v28)) (k0_pay81 v35 (k0_pay61 v28)))
      = tileRaw 192 128 (k0_pay61 v28) (k0_pay62 v41) (k0_pay74 v35) (k0_pay75 v47) := rfl

/-! ## The tile read at an entry -/

/-- The unmasked score of a row a of rho_q against a row b of rho_k, from their entropies hp, hq. -/
def sc (hp hq : EReal) (a b : Fin 256 → EReal) : EReal :=
  Spec.one - (Spec.hf * (hp + hq) - Spec.hf * ((∑ e : Fin 256, a e * Spec.lm a b e) + (∑ e : Fin 256, b e * Spec.lm a b e)))

/-- A sum over 256 features is the sum over the first 128 (started from zero) plus the sum over the last 128. -/
theorem sum_halves (f : Fin 256 → EReal) (h0 : ∀ w : Fin 128, 0 + w.val < 256) (h1 : ∀ w : Fin 128, 128 + w.val < 256) :
    (Ideal.ofBits .f32 0x00000000#32 + ∑ w : Fin 128, f ⟨0 + w.val, h0 w⟩) + ∑ w : Fin 128, f ⟨128 + w.val, h1 w⟩
      = ∑ e : Fin 256, f e := by
  rw [Ideal.ofBits_zero_f32, zero_add]
  have h := Fin.sum_univ_add (a := 128) (b := 128) (f := f)
  rw [show (∑ e : Fin 256, f e) = ∑ i : Fin (128 + 128), f i from rfl, h]
  congr 1

section chunk
variable (off : ℕ) (v52 : FVec Ideal S64x256 .f32) (v54 : FVec Ideal S128x256 .f32)
  (hs1 : S64x256.Slices ![0, off] S64x128) (hs2 : S128x256.Slices ![0, off] S128x128)
  (hb : ∀ w : Fin 128, off + w.val < 256) (p : Fin 64) (q : Fin 128)

theorem cpart_apply :
    cpart off v52 v54 hs1 hs2 (ix2 p q)
      = ∑ w : Fin 128, (fun e : Fin 256 => v52 (ix2 p e) * Spec.lm (fun e => v52 (ix2 p e)) (fun e => v54 (ix2 q e)) e) ⟨off + w.val, hb w⟩ := by
  unfold cpart
  refine (Cert.StackReduce.sum_last _ _ _ _ _ p q).trans (Finset.sum_congr rfl fun w _ => ?_)
  simp only [logMix, mulf_apply, Idealize.ShloMosaic.log, addf_apply, broadcast_apply, Cert.LibAxes.broadcastTo_a1c_abc_apply,
    Cert.LibAxes.broadcastTo_1bc_abc_apply, Cert.LibAxes.shapeCast_ac_a1c_apply, shapeCast_ab_1ab_apply, slice2_axis1_eq]
  rfl

theorem qpart_apply :
    qpart off v52 v54 hs1 hs2 (ix2 p q)
      = ∑ w : Fin 128, (fun e : Fin 256 => v54 (ix2 q e) * Spec.lm (fun e => v52 (ix2 p e)) (fun e => v54 (ix2 q e)) e) ⟨off + w.val, hb w⟩ := by
  unfold qpart
  refine (Cert.StackReduce.sum_last _ _ _ _ _ p q).trans (Finset.sum_congr rfl fun w _ => ?_)
  simp only [logMix, mulf_apply, Idealize.ShloMosaic.log, addf_apply, broadcast_apply, Cert.LibAxes.broadcastTo_a1c_abc_apply,
    Cert.LibAxes.broadcastTo_1bc_abc_apply, Cert.LibAxes.shapeCast_ac_a1c_apply, shapeCast_ab_1ab_apply, slice2_axis1_eq]
  rfl

end chunk

/-- The two halves of Σ Pq · M add up to the sum over all 256 features. -/
theorem cp_total (v52 : FVec Ideal S64x256 .f32) (v54 : FVec Ideal S128x256 .f32) (h1 h2 h3 h4) (p : Fin 64) (q : Fin 128) :
    (Ideal.ofBits .f32 0x00000000#32 + cpart 0 v52 v54 h1 h2 (ix2 p q)) + cpart 128 v52 v54 h3 h4 (ix2 p q)
      = ∑ e : Fin 256, v52 (ix2 p e) * Spec.lm (fun e => v52 (ix2 p e)) (fun e => v54 (ix2 q e)) e := by
  rw [cpart_apply 0 v52 v54 h1 h2 (fun w => by omega) p q, cpart_apply 128 v52 v54 h3 h4 (fun w => by omega) p q]
  exact sum_halves (fun e : Fin 256 => v52 (ix2 p e) * Spec.lm (fun e => v52 (ix2 p e)) (fun e => v54 (ix2 q e)) e) (fun w => by omega) (fun w => by omega)

theorem cq_total (v52 : FVec Ideal S64x256 .f32) (v54 : FVec Ideal S128x256 .f32) (h1 h2 h3 h4) (p : Fin 64) (q : Fin 128) :
    (Ideal.ofBits .f32 0x00000000#32 + qpart 0 v52 v54 h1 h2 (ix2 p q)) + qpart 128 v52 v54 h3 h4 (ix2 p q)
      = ∑ e : Fin 256, v54 (ix2 q e) * Spec.lm (fun e => v52 (ix2 p e)) (fun e => v54 (ix2 q e)) e := by
  rw [qpart_apply 0 v52 v54 h1 h2 (fun w => by omega) p q, qpart_apply 128 v52 v54 h3 h4 (fun w => by omega) p q]
  exact sum_halves (fun e : Fin 256 => v54 (ix2 q e) * Spec.lm (fun e => v52 (ix2 p e)) (fun e => v54 (ix2 q e)) e) (fun w => by omega) (fun w => by omega)

theorem tmask_apply (q0 k0 : ℕ) (p : Fin 64) (q : Fin 128) :
    tmask q0 k0 (ix2 p q) = IntOp.cmpi .sge (IntOp.addi (BitVec.ofNat 32 q0) (BitVec.ofNat 32 p.val))
            (IntOp.addi (BitVec.ofNat 32 k0) (BitVec.ofNat 32 q.val)) := by
  unfold tmask
  show IntOp.cmpi .sge (IntOp.addi _ (iota .tc S64x128 32 [0] iota_S64x128_d0_w32 (ix2 p q))) (IntOp.addi _ (iota .tc S64x128 32 [1] iota_S64x128_d1_w32 (ix2 p q))) = _
  rw [iota_single_apply, iota_single_apply]
  rfl

theorem tileRaw_apply (q0 k0 : ℕ) (v52 : FVec Ideal S64x256 .f32) (v53 : FVec Ideal S64x1 .f32) (v54 : FVec Ideal S128x256 .f32)
    (v55 : FVec Ideal S1x128 .f32) (p : Fin 64) (q : Fin 128) :
    tileRaw q0 k0 v52 v53 v54 v55 (ix2 p q)
      = Scalar.select (IntOp.cmpi .sge (IntOp.addi (BitVec.ofNat 32 q0) (BitVec.ofNat 32 p.val))
            (IntOp.addi (BitVec.ofNat 32 k0) (BitVec.ofNat 32 q.val)))
          (sc (v53 (ix2 p (0 : Fin 1))) (v55 (ix2 (0 : Fin 1) q)) (fun e => v52 (ix2 p e)) (fun e => v54 (ix2 q e)))
          (Ideal.ofBits .f32 0x00000000#32) := by
  unfold tileRaw sc
  rw [shapeCast_self, select_apply, tmask_apply]
  simp only [subf_apply, mulf_apply, addf_apply, broadcast_apply, Cert.RowOps.broadcastTo_a1_ab_apply, broadcastTo_1b_ab_apply]
  rw [← cp_total v52 v54 slices_S64x256_o0_0_S64x128 slices_S128x256_o0_0_S128x128 slices_S64x256_o0_128_S64x128 slices_S128x256_o0_128_S128x128 p q,
    ← cq_total v52 v54 slices_S64x256_o0_0_S64x128 slices_S128x256_o0_0_S128x128 slices_S64x256_o0_128_S64x128 slices_S128x256_o0_128_S128x128 p q]
  rfl

end Cert.Tile

end
-- ==== Proof.Score.lean ====
/-
  The score table the body leaves in its scratch buffer.

  Six 64 × 128 tiles on and below the block diagonal are stored over a table of zeros.  Entry (i, j) of a stored tile
  is, where j ≤ i, one minus the Jensen–Shannon term of row i of rho_q against row j of rho_k (in the kernel's
  spelling), and zero where j > i; the two tiles above the block diagonal are never stored, and every entry there has
  j > i.  So the whole table is the causally masked score at every entry.
-/
import proofs.«117373_j30442728194141_1_alg».proof.Proof.Tile
import Idealize.ShloMosaic.Lib.WordArith
import Idealize.ShloMosaic.Lib.Affine

set_option maxRecDepth 16384

noncomputable section

namespace Cert.Score

open Cert.KernelIdeal Cert.KernelIdeal.Gen Idealize.ShloMosaic Idealize.ShloMosaic.ValueIdx Cert.Tile

/-! ## The causal mask as a comparison of naturals -/

theorem addi_ofNat (a b : ℕ) : IntOp.addi (BitVec.ofNat 32 a) (BitVec.ofNat 32 b) = BitVec.ofNat 32 (a + b) := by
  simp [IntOp.addi, BitVec.ofNat_add]

theorem mask_val (a b : ℕ) (ha : a < 512) (hb : b < 512) :
    IntOp.cmpi .sge (BitVec.ofNat 32 a) (BitVec.ofNat 32 b) = if b ≤ a then 1#1 else 0#1 := by
  have hta : (BitVec.ofNat 32 a).toInt = a := WordArith.toInt_ofNat_small a (by omega)
  have htb : (BitVec.ofNat 32 b).toInt = b := WordArith.toInt_ofNat_small b (by omega)
  by_cases h : b ≤ a
  · rw [if_pos h, IntOp.cmpi_sge, hta, htb]; exact_mod_cast h
  · rw [if_neg h]
    have : ¬ (IntOp.cmpi .sge (BitVec.ofNat 32 a) (BitVec.ofNat 32 b) = 1#1) := by
      rw [IntOp.cmpi_sge, hta, htb]; exact_mod_cast h
    exact ValueIdx.eq_zero_of_ne_one this

/-! ## The table -/

/-- The masked score at entry y of the table, from the arrays rho_q (v28) and rho_k (v35). -/
def scoreK (v28 v35 : FVec Ideal S256x256 .f32) (y : S256x256.Idx) : EReal :=
  if (y 1).val ≤ (y 0).val then
    sc (Spec.ent fun e => v28 (ix2 (y 0) e)) (Spec.ent fun e => v35 (ix2 (y 1) e)) (fun e => v28 (ix2 (y 0) e)) (fun e => v35 (ix2 (y 1) e))
  else Ideal.ofBits .f32 0x00000000#32

/-- A stored tile, cut at rows q0 and columns k0, read at (p, q), is the table's entry (q0 + p, k0 + q). -/
theorem tile_value (q0 k0 : ℕ) (v28 v35 : FVec Ideal S256x256 .f32) (v41 : FVec Ideal S256x1 .f32) (v47 : FVec Ideal S1x256 .f32)
    (h1 : S256x256.Slices ![q0, 0] S64x256) (h2 : S256x1.Slices ![q0, 0] S64x1) (h3 : S256x256.Slices ![k0, 0] S128x256)
    (h4 : S1x256.Slices ![0, k0] S1x128)
    (hv41 : ∀ i : Fin 256, v41 (ix2 i (0 : Fin 1)) = Spec.ent fun e => v28 (ix2 i e))
    (hv47 : ∀ j : Fin 256, v47 (ix2 (0 : Fin 1) j) = Spec.ent fun e => v35 (ix2 j e))
    (p : Fin 64) (q : Fin 128) (y : S256x256.Idx) (hy0 : (y 0).val = q0 + p.val) (hy1 : (y 1).val = k0 + q.val) :
    tileRaw q0 k0 (extractStridedSlice S64x256 ![q0, 0] v28 h1) (extractStridedSlice S64x1 ![q0, 0] v41 h2)
        (extractStridedSlice S128x256 ![k0, 0] v35 h3) (extractStridedSlice S1x128 ![0, k0] v47 h4) (ix2 p q)
      = scoreK v28 v35 y := by
  have e0 : y 0 = ⟨q0 + p.val, hy0 ▸ (y 0).isLt⟩ := Fin.ext hy0
  have e1 : y 1 = ⟨k0 + q.val, hy1 ▸ (y 1).isLt⟩ := Fin.ext hy1
  have b0 : q0 + p.val < 256 := hy0 ▸ (y 0).isLt
  have b1 : k0 + q.val < 256 := hy1 ▸ (y 1).isLt
  rw [tileRaw_apply, addi_ofNat, addi_ofNat, mask_val _ _ (by omega) (by omega)]
  unfold scoreK
  rw [← hy0, ← hy1]
  by_cases hm : (y 1).val ≤ (y 0).val
  · rw [if_pos hm, if_pos hm, ValueIdx.select_one]
    simp only [slice2_axis0_eq, slice2_axis1_eq]
    rw [hv41, hv47, e0, e1]
    rfl
  · rw [if_neg hm, if_neg hm, ValueIdx.select_zero]

end Cert.Score

end
-- ==== Proof.Scratch.lean ====
/-
  The scratch buffer after the body's seven stores, read back whole: at every entry it holds the masked score.

  The stores are, last first, the six tiles and the zero fill of the whole table.  An entry inside a tile reads that
  tile's value; an entry inside no tile lies in rows 0–127 and columns 128–255, so its column exceeds its row, and it
  reads the zero of the fill, which is the masked score there.
-/
import proofs.«117373_j30442728194141_1_alg».proof.Proof.Gen.KernelIdeal.Value
import proofs.«117373_j30442728194141_1_alg».proof.Proof.Score

set_option maxRecDepth 16384

noncomputable section

namespace Cert.Scratch

open Cert.KernelIdeal Cert.KernelIdeal.Gen Idealize.ShloMosaic Idealize.ShloMosaic.TcCoe Idealize.SL.Sem
open Idealize.ShloMosaic.ValueIdx Idealize.ShloMosaic.Tactic Cert.Tile Cert.Score

theorem hz2 : (![0, 0] : Fin 2 → Nat) = fun _ => 0 := funext fun a => by fin_cases a <;> rfl
theorem hz3 : (![0, 0, 0] : Fin 3 → Nat) = fun _ => 0 := funext fun a => by fin_cases a <;> rfl

/-- The contents a list of stores leaves agree with a function G at y when the last store's value is G on its
    rectangle and, off that rectangle, the earlier stores leave G at y. -/
theorem canon_cons_agree {S : Shape} {e : EltTy} {Val : EltTy → Type} [∀ e, Nonempty (Val e)] (G : S.Idx → Val e)
    (r : Rect S) (w : r.shape.Idx → Val e) (L : List (View.Piece Val S e)) (y : S.Idx)
    (hw : ∀ x, w x = G (r.emb x)) (hrest : y ∉ r.set → View.canon L y = G y) :
    View.canon ((⟨r, w⟩ : View.Piece Val S e) :: L) y = G y := by
  by_cases hm : y ∈ r.set
  · obtain ⟨x, rfl⟩ := r.exists_idx_of_mem hm
    rw [show r.idx x = r.emb x from rfl, View.canon_cons_emb]; exact hw x
  · rw [View.canon_cons_of_not_mem _ _ hm]; exact hrest hm

/-- tile_value at an entry of the tile given by its two coordinates inside the tile. -/
theorem tile_at (q0 k0 : ℕ) (v28 v35 : FVec Ideal S256x256 .f32) (v41 : FVec Ideal S256x1 .f32) (v47 : FVec Ideal S1x256 .f32)
    (h1 : S256x256.Slices ![q0, 0] S64x256) (h2 : S256x1.Slices ![q0, 0] S64x1) (h3 : S256x256.Slices ![k0, 0] S128x256)
    (h4 : S1x256.Slices ![0, k0] S1x128)
    (hv41 : ∀ i : Fin 256, v41 (ix2 i (0 : Fin 1)) = Spec.ent fun e => v28 (ix2 i e))
    (hv47 : ∀ j : Fin 256, v47 (ix2 (0 : Fin 1) j) = Spec.ent fun e => v35 (ix2 j e))
    (x : S64x128.Idx) (y : S256x256.Idx) (hy0 : (y 0).val = q0 + 1 * (x 0).val) (hy1 : (y 1).val = k0 + 1 * (x 1).val) :
    tileRaw q0 k0 (extractStridedSlice S64x256 ![q0, 0] v28 h1) (extractStridedSlice S64x1 ![q0, 0] v41 h2)
        (extractStridedSlice S128x256 ![k0, 0] v35 h3) (extractStridedSlice S1x128 ![0, k0] v47 h4) x
      = scoreK v28 v35 y := by
  obtain ⟨p, q, rfl⟩ : ∃ (p : Fin 64) (q : Fin 128), x = ix2 p q := ⟨x 0, x 1, eq_ix2 x⟩
  exact tile_value q0 k0 v28 v35 v41 v47 h1 h2 h3 h4 hv41 hv47 p q y (by rw [hy0, Nat.one_mul]) (by rw [hy1, Nat.one_mul])

/-- The scratch buffer read back whole is the masked score table. -/
theorem S_eq (c : Dev nD) (arg1 : Memref sig .tc .vmem S1x256x256 .f32) (harg1 : arg1.IsWhole) (arg3 : Memref sig .tc .vmem S256x256 .f32) (harg3 : arg3.IsWhole) (arg4 : Memref sig .tc .vmem S256x256 .f32) (harg4 : arg4.IsWhole) (arg6 : Memref sig .tc .vmem S256x256 .f32)
    (x0 : Vec Ideal S1x256x256 .f32) (x2 : Vec Ideal S256x256 .f32) (x3 : Vec Ideal S256x256 .f32)
    (hv41 : ∀ i : Fin 256, k0_pay9 (F := Ideal) (k0_pay8 x0 x2) (ix2 i (0 : Fin 1)) = Spec.ent fun e => k0_pay6 (F := Ideal) x0 x2 (ix2 i e))
    (hv47 : ∀ j : Fin 256, k0_pay10 (F := Ideal) (k0_pay7 x0 x3) (ix2 (0 : Fin 1) j) = Spec.ent fun e => k0_pay7 (F := Ideal) x0 x3 (ix2 j e))
    (y : S256x256.Idx) :
    kernelRun0_A.sl.v462 (F := Ideal) c arg1 harg1 arg3 harg3 arg4 harg4 arg6 x0 x2 x3 y
      = scoreK (k0_pay6 (F := Ideal) x0 x2) (k0_pay7 (F := Ideal) x0 x3) y := by
  unfold kernelRun0_A.sl.v462
  rw [View.readCov_eq_canon']
  sl_unfold_words
  simp only [View.readAt_eq_ld, harg1.read_unread, harg3.read_unread, harg4.read_unread, View.ld_unit_zero (S := S1x256x256) hz3,
    View.ld_unit_zero (S := S256x256) hz2]
  rw [show (Rect.unit ![0, 0] ![256, 256] inb_S256x256_S256x256_0_0).idx y = y from funext fun a => Fin.ext (by
    match a with
    | ⟨0, _⟩ => show 0 + 1 * (y 0).val = (y 0).val; omega
    | ⟨1, _⟩ => show 0 + 1 * (y 1).val = (y 1).val; omega)]
  refine canon_cons_agree (S := S256x256) (Val := Elt Ideal) (e := EltTy.f32) (scoreK (k0_pay6 (F := Ideal) x0 x2) (k0_pay7 (F := Ideal) x0 x3)) _ _ _ y (fun x => ?_) (fun h6 => ?_)
  · exact (congrFun (tile_192_128 _ _ _ _) x).trans (tile_at 192 128 _ _ _ _ slices_S256x256_o192_0_S64x256 slices_S256x1_o192_0_S64x1 slices_S256x256_o128_0_S128x256 slices_S1x256_o0_128_S1x128 hv41 hv47 x _ rfl rfl)
  refine canon_cons_agree (S := S256x256) (Val := Elt Ideal) (e := EltTy.f32) (scoreK (k0_pay6 (F := Ideal) x0 x2) (k0_pay7 (F := Ideal) x0 x3)) _ _ _ y (fun x => ?_) (fun h5 => ?_)
  · exact (congrFun (tile_192_0 _ _ _ _) x).trans (tile_at 192 0 _ _ _ _ slices_S256x256_o192_0_S64x256 slices_S256x1_o192_0_S64x1 slices_S256x256_o0_0_S128x256 slices_S1x256_o0_0_S1x128 hv41 hv47 x _ rfl rfl)
  refine canon_cons_agree (S := S256x256) (Val := Elt Ideal) (e := EltTy.f32) (scoreK (k0_pay6 (F := Ideal) x0 x2) (k0_pay7 (F := Ideal) x0 x3)) _ _ _ y (fun x => ?_) (fun h4 => ?_)
  · exact (congrFun (tile_128_128 _ _ _ _) x).trans (tile_at 128 128 _ _ _ _ slices_S256x256_o128_0_S64x256 slices_S256x1_o128_0_S64x1 slices_S256x256_o128_0_S128x256 slices_S1x256_o0_128_S1x128 hv41 hv47 x _ rfl rfl)
  refine canon_cons_agree (S := S256x256) (Val := Elt Ideal) (e := EltTy.f32) (scoreK (k0_pay6 (F := Ideal) x0 x2) (k0_pay7 (F := Ideal) x0 x3)) _ _ _ y (fun x => ?_) (fun h3 => ?_)
  · exact (congrFun (tile_128_0 _ _ _ _) x).trans (tile_at 128 0 _ _ _ _ slices_S256x256_o128_0_S64x256 slices_S256x1_o128_0_S64x1 slices_S256x256_o0_0_S128x256 slices_S1x256_o0_0_S1x128 hv41 hv47 x _ rfl rfl)
  refine canon_cons_agree (S := S256x256) (Val := Elt Ideal) (e := EltTy.f32) (scoreK (k0_pay6 (F := Ideal) x0 x2) (k0_pay7 (F := Ideal) x0 x3)) _ _ _ y (fun x => ?_) (fun h2 => ?_)
  · exact (congrFun (tile_64_0 _ _ _ _) x).trans (tile_at 64 0 _ _ _ _ slices_S256x256_o64_0_S64x256 slices_S256x1_o64_0_S64x1 slices_S256x256_o0_0_S128x256 slices_S1x256_o0_0_S1x128 hv41 hv47 x _ rfl rfl)
  refine canon_cons_agree (S := S256x256) (Val := Elt Ideal) (e := EltTy.f32) (scoreK (k0_pay6 (F := Ideal) x0 x2) (k0_pay7 (F := Ideal) x0 x3)) _ _ _ y (fun x => ?_) (fun h1 => ?_)
  · exact (congrFun (tile_0_0 _ _ _) x).trans (tile_at 0 0 _ _ _ _ slices_S256x256_o0_0_S64x256 slices_S256x1_o0_0_S64x1 slices_S256x256_o0_0_S128x256 slices_S1x256_o0_0_S1x128 hv41 hv47 x _ rfl rfl)
  rw [View.canon_unit_zero hz2]
  have hlt : ¬ ((y 1).val ≤ (y 0).val) := by
    have b0 : (y 0).val < 256 := (y 0).isLt
    have b1 : (y 1).val < 256 := (y 1).isLt
    rw [Rect.mem_set_unit] at h1 h2 h3 h4 h5 h6
    simp only [Fin.forall_fin_two, Matrix.cons_val_zero, Matrix.cons_val_one, Matrix.head_cons] at h1 h2 h3 h4 h5 h6
    omega
  unfold scoreK
  rw [if_neg hlt]
  rfl

end Cert.Scratch

end
-- ==== Proof.KernelOut.lean ====
/-
  What one grid point writes back: the body's stored block, entry by entry, is the layer of the point's slab.

  The body stores one block, the product of the L1-normalised score table with the value projection.  The score table
  is read back from the scratch buffer, where it is the causally masked score of the rows of rho_q and rho_k in the
  kernel's spelling of the Jensen–Shannon term; on rows of nonnegative reals that spelling equals the reference's.
-/
import proofs.«117373_j30442728194141_1_alg».proof.Proof.Gen.KernelIdeal.Value
import proofs.«117373_j30442728194141_1_alg».proof.Proof.Spec
import proofs.«117373_j30442728194141_1_alg».proof.Proof.Payloads
import proofs.«117373_j30442728194141_1_alg».proof.Proof.Scratch

set_option maxRecDepth 16384

noncomputable section

namespace Cert.KernelOut

open Cert.KernelIdeal Cert.KernelIdeal.Gen Idealize.ShloMosaic Idealize.ShloMosaic.TcCoe Idealize.SL.Sem
open Idealize.ShloMosaic.ValueIdx Idealize.ShloMosaic.Tactic

/-- The masked score table in the kernel's spelling is the reference's, when the rows of rho_q and rho_k are
    nonnegative reals. -/
theorem scoreK_eq (v28 v35 : FVec Ideal S256x256 .f32) (P Q : Fin 256 → Fin 256 → EReal)
    (hP : ∀ i e, v28 (ix2 i e) = P i e) (hQ : ∀ j e, v35 (ix2 j e) = Q j e)
    (hPr : ∀ i e, ∃ p : ℝ, 0 ≤ p ∧ P i e = (p : EReal)) (hQr : ∀ j e, ∃ p : ℝ, 0 ≤ p ∧ Q j e = (p : EReal))
    (i j : Fin 256) :
    Cert.Score.scoreK v28 v35 (ix2 i j) = Spec.score (fun i j => Spec.jsRef (P i) (Q j)) i j := by
  unfold Cert.Score.scoreK Spec.score
  have e1 : (fun e => v28 (ix2 i e)) = P i := funext fun e => hP i e
  have e2 : (fun e => v35 (ix2 j e)) = Q j := funext fun e => hQ j e
  show (if j.val ≤ i.val then Cert.Tile.sc (Spec.ent fun e => v28 (ix2 i e)) (Spec.ent fun e => v35 (ix2 j e))
      (fun e => v28 (ix2 i e)) (fun e => v35 (ix2 j e)) else Ideal.ofBits .f32 0x00000000#32) = _
  rw [e1, e2, Ideal.ofBits_zero_f32]
  show (if j.val ≤ i.val then Cert.Tile.sc (Spec.ent (P i)) (Spec.ent (Q j)) (P i) (Q j) else 0)
    = if j.val ≤ i.val then Spec.one - Spec.jsRef (P i) (Q j) else 0
  rw [← Spec.js_eq (P i) (Q j) (hPr i) (hQr j)]
  rfl

/-- The block the body stores, at entry (0, r, h), is the layer of the slab it loaded at (r, h), when the slab and the
    two projection matrices hold real numbers. -/
theorem out_apply (c : Dev nD) (i : grid0.Coords) (arg1 : Memref sig .tc .vmem S1x256x256 .f32) (harg1 : arg1.IsWhole) (arg2 : Memref sig .tc .vmem S128x256 .f32) (harg2 : arg2.IsWhole) (arg3 : Memref sig .tc .vmem S256x256 .f32) (harg3 : arg3.IsWhole) (arg4 : Memref sig .tc .vmem S256x256 .f32) (harg4 : arg4.IsWhole) (arg5 : Memref sig .tc .vmem S1x256x128 .f32) (harg5 : arg5.IsWhole) (arg6 : Memref sig .tc .vmem S256x256 .f32) (harg6 : arg6.IsWhole)
    (x0 : Vec Ideal S1x256x256 .f32) (x1 : Vec Ideal S128x256 .f32) (x2 : Vec Ideal S256x256 .f32) (x3 : Vec Ideal S256x256 .f32)
    (hx0 : ∀ j, IsReal (x0 j)) (hx2 : ∀ j, IsReal (x2 j)) (hx3 : ∀ j, IsReal (x3 j)) (r : Fin 256) (h : Fin 128) :
    out0_A_4 (F := Ideal) c i arg1 harg1 arg2 harg2 arg3 harg3 arg4 harg4 arg5 harg5 arg6 harg6 x0 x1 x2 x3 (ix3 (0 : Fin 1) r h)
      = Spec.layer Spec.jsRef (fun r e => x0 (ix3 (0 : Fin 1) r e)) (Spec.mat x2) (Spec.mat x3) (Spec.mat x1) r h := by
  have hX : ∀ r e, IsReal ((fun r e => x0 (ix3 (0 : Fin 1) r e)) r e) := fun r e => hx0 _
  have hWq : ∀ f e, IsReal (Spec.mat x2 f e) := fun f e => hx2 _
  have hWk : ∀ f e, IsReal (Spec.mat x3 f e) := fun f e => hx3 _
  unfold out0_A_4
  rw [View.read_writes_eq_canon _ _ _ (cover0_A_4 c i arg1 harg1 arg2 harg2 arg3 harg3 arg4 harg4 arg5 harg5 arg6 harg6 x0 x1 x2 x3)]
  unfold kernelRun0_A
  dsimp only
  rw [View.canon_unit_zero Cert.Scratch.hz3, Cert.Pay.pay2_apply]
  unfold Spec.layer
  refine congrArg₂ (fun S V => Spec.attnOut S V r h) (funext fun a => funext fun b => ?_) (funext fun a => funext fun b => ?_)
  · rw [Cert.Scratch.S_eq c arg1 harg1 arg3 harg3 arg4 harg4 arg6 x0 x2 x3 (Cert.Pay.pay9_apply x0 x2) (Cert.Pay.pay10_apply _) (ix2 a b)]
    exact scoreK_eq _ _ _ _ (Cert.Pay.pay6_apply x0 x2) (Cert.Pay.pay7_apply x0 x3)
      (fun i e => Spec.rho_real _ _ hX hWq i e) (fun j e => Spec.rho_real _ _ hX hWk j e) a b
  · unfold kernelRun0_A.sl.r
    simp only [View.readAt_eq_ld, harg1.read_unread, harg2.read_unread, View.ld_unit_zero (S := S1x256x256) Cert.Scratch.hz3,
      View.ld_unit_zero (S := S128x256) Cert.Scratch.hz2]
    exact Cert.Pay.pay4_apply x0 x1 a b

end Cert.KernelOut

end
-- ==== Proof.PreReal.lean ====
/-
  From the precondition to "every input entry is a real number".

  The precondition takes, for each of the four input arrays, the absolute value of every entry, compares it (strictly
  below) with the word of +∞, takes the conjunction over the whole array, and conjoins the four results. If the result
  is 1 then every entry x of every array has |x| < +∞ on the extended reals. An extended real is −∞, a real, or +∞;
  at either infinity |x| = +∞, which is not below +∞; so x is a real number.
-/
import proofs.«117373_j30442728194141_1_alg».proof.Defs
import proofs.«117373_j30442728194141_1_alg».proof.Proof.Gen.Pre_finite_inputs
import proofs.«117373_j30442728194141_1_alg».proof.Proof.LibIsReal
import Idealize.ShloMosaic.Lib.ReduceAll
import Idealize.ShloMosaic.Lib.ValueIdx

noncomputable section

namespace Cert.PreReal

open Idealize.ShloMosaic
open Cert.Pre_finite_inputs

/-- The rank-0 shape has one index. -/
instance : Subsingleton S_.Idx := ⟨fun a b => funext fun d => d.elim0⟩

/-- The word 0x7F800000 denotes +∞. -/
theorem inf_word : Ideal.ofBits .f32 0x7F800000#32 = (⊤ : EReal) := by simp [Ideal.ofBits, Ideal.ieee]

/-- An extended real whose absolute value is strictly below +∞ is a real number. -/
theorem isReal_of_abs_lt (x : EReal) (h : Ideal.cmp .olt (max x (-x)) (Ideal.ofBits .f32 0x7F800000#32) = 1#1) :
    IsReal x := by
  rw [inf_word] at h
  induction x using EReal.rec with
  | bot => simp [Ideal.cmp] at h
  | coe r => exact IsReal.coe r
  | top => simp [Ideal.cmp] at h

/-- One array: if the comparison of |a| with the broadcast +∞ word is 1 at index i, entry i is real. -/
theorem elem {s : Shape} (hb : S_.BroadcastsInDim s (![] : Fin 0 → Fin s.rank)) (a : FVec Ideal s .f32) (i : s.Idx)
    (h : cmpf .olt (Host.absf a) (broadcastInDim s ![] hb (constant (F := Ideal) S_ .f32 0x7F800000#32)) i = 1#1) :
    IsReal (a i) :=
  isReal_of_abs_lt (a i) h

/-- The precondition, decoded: every entry of the four arrays is a real number. -/
theorem real_of_fn [Cert.Pre_finite_inputs.Facts]
    (a0 : FVec Ideal Cert.Pre_finite_inputs.S4x256x256 .f32) (a1 : FVec Ideal Cert.Pre_finite_inputs.S128x256 .f32)
    (a2 a3 : FVec Ideal Cert.Pre_finite_inputs.S256x256 .f32)
    (h : Cert.Pre_finite_inputs.fn (F := Ideal) a0 a1 a2 a3 = fun _ => 1#1) :
    (∀ i, Cert.IsReal (a0 i)) ∧ (∀ i, Cert.IsReal (a1 i)) ∧ (∀ i, Cert.IsReal (a2 i)) ∧ (∀ i, Cert.IsReal (a3 i)) := by
  have e := congrFun h ValueIdx.ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨fun i => elem _ a0 i (Host.reduce_andi_all _ _ _ _ _ e0 i),
    fun i => elem _ a1 i (Host.reduce_andi_all _ _ _ _ _ e1 i),
    fun i => elem _ a2 i (Host.reduce_andi_all _ _ _ _ _ e2 i),
    fun i => elem _ a3 i (Host.reduce_andi_all _ _ _ _ _ e3 i)⟩

end Cert.PreReal

end
-- ==== Proof.Final.lean ====
/-
  From blocks to the whole result array of the idealized kernel, and its run.

  The kernel runs over four grid points. At point t it loads batch slab t of the first argument (a block of one slab:
  entry (0, r, e) of the block is entry (t, r, e) of the array) and the three weight matrices whole, and writes back one
  block of the result: entry (0, r, h) of the block is entry (t, r, h) of the result array. Under the precondition every
  argument entry is a real number, so the stored block is the layer of the loaded slab, entry by entry. The four blocks
  are the four batch slabs of the result, so they cover it: index (b, r, h) lies in the block of point b. Hence the
  result array ends holding, at (b, r, h), the layer of slab b at (r, h).
-/
import proofs.«117373_j30442728194141_1_alg».proof.Proof.Gen.KernelIdeal.Value
import proofs.«117373_j30442728194141_1_alg».proof.Proof.KernelOut
import proofs.«117373_j30442728194141_1_alg».proof.Proof.PreReal
import proofs.«117373_j30442728194141_1_alg».proof.Proof.Spec

set_option maxRecDepth 16384

noncomputable section

namespace Cert.KernelFinal

open Cert.KernelIdeal Cert.KernelIdeal.Gen Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The windows' block indices at each of the four grid points: the first argument's and the result's windows are at
    block (t, 0, 0) at point t, the three weight matrices' windows at block (0, 0) at every point. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 3) = t.val ∧ win0_4.index t (1 : Fin 3) = 0 ∧ win0_4.index t (2 : Fin 3) = 0 :=
  (by decide +kernel : ∀ t : Fin grid0.N, _)

/-- The first window's block at point t is batch slab t of the first argument: a block's coordinate on an axis is the
    block index times the block size plus the coordinate inside the block. -/
theorem iblk0_apply (c : Dev nD) (t : Fin cfg0.N) (r e : Fin 256) (k : S4x256x256.Idx)
    (hk0 : (k 0).val = t.val) (hk1 : (k 1).val = r.val) (hk2 : (k 2).val = e.val) :
    (iblk m c 0 t : Vec Ideal S1x256x256 .f32) (ix3 (0 : Fin 1) r e) = (m ((c : Thread nD τ).loc main_arg0) : S4x256x256.Idx → Elt Ideal .f32) k := by
  obtain ⟨e0, e1, e2, -⟩ := idx_facts t
  unfold iblk
  rw [View.read_apply]
  show V m c main_arg0 _ = m (c.tc.loc main_arg0) _
  unfold V
  congr 1
  funext a
  apply Fin.ext
  match a with
  | ⟨0, _⟩ => show win0_0.index t 0 * 1 + 1 * ((ix3 (0 : Fin 1) r e) 0).val = (k 0).val; rw [e0, hk0]; show t.val * 1 + 1 * 0 = t.val; omega
  | ⟨1, _⟩ => show win0_0.index t 1 * 256 + 1 * ((ix3 (0 : Fin 1) r e) 1).val = (k 1).val; rw [e1, hk1]; show 0 * 256 + 1 * r.val = r.val; omega
  | ⟨2, _⟩ => show win0_0.index t 2 * 256 + 1 * ((ix3 (0 : Fin 1) r e) 2).val = (k 2).val; rw [e2, hk2]; show 0 * 256 + 1 * e.val = e.val; omega

/-- A window that takes its whole array at every point: the block is the array. -/
theorem iblk1_eq (c : Dev nD) (t : Fin cfg0.N) :
    (iblk m c 1 t : Vec Ideal S128x256 .f32) = (m ((c : Thread nD τ).loc main_arg1) : S128x256.Idx → Elt Ideal .f32) := by
  obtain ⟨-, -, -, e0, e1, -⟩ := idx_facts t
  funext j
  unfold iblk
  rw [View.read_apply]
  show V m c main_arg1 _ = m (c.tc.loc main_arg1) _
  unfold V
  congr 1
  funext a
  apply Fin.ext
  match a with
  | ⟨0, _⟩ => show win0_1.index t 0 * 128 + 1 * (j 0).val = (j 0).val; rw [e0]; omega
  | ⟨1, _⟩ => show win0_1.index t 1 * 256 + 1 * (j 1).val = (j 1).val; rw [e1]; omega

/-- The same for the third argument. -/
theorem iblk2_eq (c : Dev nD) (t : Fin cfg0.N) :
    (iblk m c 2 t : Vec Ideal S256x256 .f32) = (m ((c : Thread nD τ).loc main_arg2) : S256x256.Idx → Elt Ideal .f32) := by
  obtain ⟨-, -, -, -, -, e0, e1, -⟩ := idx_facts t
  funext j
  unfold iblk
  rw [View.read_apply]
  show V m c main_arg2 _ = m (c.tc.loc main_arg2) _
  unfold V
  congr 1
  funext a
  apply Fin.ext
  match a with
  | ⟨0, _⟩ => show win0_2.index t 0 * 256 + 1 * (j 0).val = (j 0).val; rw [e0]; omega
  | ⟨1, _⟩ => show win0_2.index t 1 * 256 + 1 * (j 1).val = (j 1).val; rw [e1]; omega

/-- The same for the fourth argument. -/
theorem iblk3_eq (c : Dev nD) (t : Fin cfg0.N) :
    (iblk m c 3 t : Vec Ideal S256x256 .f32) = (m ((c : Thread nD τ).loc main_arg3) : S256x256.Idx → Elt Ideal .f32) := by
  obtain ⟨-, -, -, -, -, -, -, e0, e1, -⟩ := idx_facts t
  funext j
  unfold iblk
  rw [View.read_apply]
  show V m c main_arg3 _ = m (c.tc.loc main_arg3) _
  unfold V
  congr 1
  funext a
  apply Fin.ext
  match a with
  | ⟨0, _⟩ => show win0_3.index t 0 * 256 + 1 * (j 0).val = (j 0).val; rw [e0]; omega
  | ⟨1, _⟩ => show win0_3.index t 1 * 256 + 1 * (j 1).val = (j 1).val; rw [e1]; omega

/-- Under the precondition every entry of the four argument arrays is a real number, on every device. -/
theorem reals (hpre : Cert.Pre_KernelIdeal m) (c : Dev nD) :
    (∀ i, IsReal ((m ((c : Thread nD τ).loc main_arg0) : S4x256x256.Idx → Elt Ideal .f32) i))
    ∧ (∀ i, IsReal ((m ((c : Thread nD τ).loc main_arg1) : S128x256.Idx → Elt Ideal .f32) i))
    ∧ (∀ i, IsReal ((m ((c : Thread nD τ).loc main_arg2) : S256x256.Idx → Elt Ideal .f32) i))
    ∧ (∀ i, IsReal ((m ((c : Thread nD τ).loc main_arg3) : S256x256.Idx → Elt Ideal .f32) i)) :=
  Cert.PreReal.real_of_fn _ _ _ _ (hpre c)

/-- The result array: entry (b, i, h) is the layer of batch slab b of the first argument at (i, h). -/
abbrev result (c : Dev nD) : S4x256x128.Idx → Elt Ideal .f32 :=
  Spec.G Spec.jsRef (m ((c : Thread nD τ).loc main_arg0)) (m ((c : Thread nD τ).loc main_arg1))
    (m ((c : Thread nD τ).loc main_arg2)) (m ((c : Thread nD τ).loc main_arg3))

/-- What point t writes back is block t of the result array. -/
theorem flushed_eq (hpre : Cert.Pre_KernelIdeal m) (c : Dev nD) (t : Fin cfg0.N) :
    (dats m 0 c).flushed 4 t = ((cfg0.win 4).blk t).view.read (Elt Ideal) (result m c) := by
  obtain ⟨hr0, hr1, hr2, hr3⟩ := reals m hpre c
  obtain ⟨-, -, -, -, -, -, -, -, -, e0, e1, e2⟩ := idx_facts t
  rw [Value.flushed4_A]
  refine funext fun (j : S1x256x128.Idx) => ?_
  obtain ⟨a, r, h, rfl⟩ : ∃ a r h, j = ix3 a r h := ⟨j 0, j 1, j 2, eq_ix3 j⟩
  obtain rfl : a = 0 := Subsingleton.elim _ _
  rw [View.read_apply]
  have ht : t.val < 4 := lt_of_lt_of_eq t.isLt N_0
  -- the loaded slab, and the three matrices, as the argument arrays
  have hslab : (fun r e => (iblk m c 0 t : Vec Ideal S1x256x256 .f32) (ix3 (0 : Fin 1) r e))
      = Spec.slab (m ((c : Thread nD τ).loc main_arg0)) ⟨t.val, ht⟩ :=
    funext fun r => funext fun e => iblk0_apply m c t r e (ix3 (⟨t.val, ht⟩ : Fin 4) r e) rfl rfl rfl
  have hx0 : ∀ j, IsReal ((iblk m c 0 t : Vec Ideal S1x256x256 .f32) j) := fun j => by
    obtain ⟨a, r, e, rfl⟩ : ∃ a r e, j = ix3 a r e := ⟨j 0, j 1, j 2, eq_ix3 j⟩
    obtain rfl : a = 0 := Subsingleton.elim _ _
    rw [iblk0_apply m c t r e (ix3 (⟨t.val, ht⟩ : Fin 4) r e) rfl rfl rfl]
    exact hr0 _
  have hx2 : ∀ j, IsReal ((iblk m c 2 t : Vec Ideal S256x256 .f32) j) := fun j => by rw [iblk2_eq]; exact hr2 _
  have hx3 : ∀ j, IsReal ((iblk m c 3 t : Vec Ideal S256x256 .f32) j) := fun j => by rw [iblk3_eq]; exact hr3 _
  -- the entry's place in the array
  have hemb : ((cfg0.win 4).blk t).view.emb (ix3 (0 : Fin 1) r h) = (ix3 (⟨t.val, ht⟩ : Fin 4) r h : S4x256x128.Idx) := by
    funext a
    apply Fin.ext
    match a with
    | ⟨0, _⟩ => show win0_4.index t 0 * 1 + 1 * 0 = t.val; rw [e0]; omega
    | ⟨1, _⟩ => show win0_4.index t 1 * 256 + 1 * r.val = r.val; rw [e1]; omega
    | ⟨2, _⟩ => show win0_4.index t 2 * 128 + 1 * h.val = h.val; rw [e2]; omega
  show out0_A_4 (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) (ix3 (0 : Fin 1) r h)
    = result m c (((cfg0.win 4).blk t).view.emb (ix3 (0 : Fin 1) r h))
  refine (Cert.KernelOut.out_apply c (grid0.coords t) (ms0_0 t) (hs0_0 t) (ms0_1 t) (hs0_1 t) (ms0_2 t) (hs0_2 t) (ms0_3 t) (hs0_3 t) (ms0_4 t) (hs0_4 t) scM0_0 (Memref.isWhole_whole _) (iblk m c 0 t) (iblk m c 1 t) (iblk m c 2 t) (iblk m c 3 t) hx0 hx2 hx3 r h).trans ?_
  rw [hemb, hslab, iblk1_eq, iblk2_eq, iblk3_eq]
  rfl

/-- Every index of the result array is in the block of the point its batch coordinate names. -/
theorem covered (i : S4x256x128.Idx) :
    ∃ t : Fin cfg0.N, (cfg0.win 4).flush t = true ∧ i ∈ ((cfg0.win 4).blk t).view.set := by
  have hi0 : (i 0).val < 4 := (i 0).isLt
  have hi1 : (i 1).val < 256 := (i 1).isLt
  have hi2 : (i 2).val < 128 := (i 2).isLt
  obtain ⟨t, ht⟩ : ∃ t : Fin cfg0.N, t.val = (i 0).val := ⟨⟨(i 0).val, lt_of_lt_of_eq hi0 N_0.symm⟩, rfl⟩
  obtain ⟨-, -, -, -, -, -, -, -, -, e0, e1, e2⟩ := idx_facts t
  refine ⟨t, flush0_4 t, ?_⟩
  show i ∈ ((View.whole main_v0).slice (win0_4.rect t)).set
  rw [View.set_slice_whole, Rect.mem_set_unit]
  intro a
  match a with
  | ⟨0, _⟩ =>
    show win0_4.index t (0 : Fin 3) * 1 ≤ (i 0).val ∧ (i 0).val < win0_4.index t (0 : Fin 3) * 1 + 1
    rw [e0]; omega
  | ⟨1, _⟩ =>
    show win0_4.index t (1 : Fin 3) * 256 ≤ (i 1).val ∧ (i 1).val < win0_4.index t (1 : Fin 3) * 256 + 256
    rw [e1]; omega
  | ⟨2, _⟩ =>
    show win0_4.index t (2 : Fin 3) * 128 ≤ (i 2).val ∧ (i 2).val < win0_4.index t (2 : Fin 3) * 128 + 128
    rw [e2]; omega

/-- The array after the run: the layer of every batch slab, entry by entry. -/
theorem final (hpre : Cert.Pre_KernelIdeal m) (c : Dev nD) :
    (dats m 0 c).arrAt 4 cfg0.N
      = Spec.G Spec.jsRef (m ((c.tc : Thread nD τ).loc main_arg0)) (m ((c.tc : Thread nD τ).loc main_arg1))
          (m ((c.tc : Thread nD τ).loc main_arg2)) (m ((c.tc : Thread nD τ).loc main_arg3)) :=
  (dats m 0 c).arrAt_eq_of_cover 4 (result m c) (fun t _ => flushed_eq m hpre c t) covered

/-- The run, read: the result array at the layer of the arguments, the arguments unchanged. -/
theorem run (hpre : Cert.Pre_KernelIdeal m) :
    θ_run (Cert.KernelIdeal.defs (F := Ideal)) (onTc (τ := τ) (main (F := Ideal))) ⟨m, fun _ => 0, ρ⟩ fun r => ∀ c : Dev nD,
      r.2.mem ((c.tc : Thread nD τ).loc main_v0)
          = Spec.G Spec.jsRef (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (final m hpre c), (h c).2⟩) (Value.run_blocks m ρ)

end Cert.KernelFinal

end
-- ==== Proof.RefIsSpecA.lean ====
/-
  The reference program, stage by stage, is the layer of Spec with the reference's spelling of the
  Jensen–Shannon term.  This file: the value projection, the normalised tokens and the rows of rho.
-/
import proofs.«117373_j30442728194141_1_alg».proof.Proof.Gen.ReferenceIdeal.Read
import proofs.«117373_j30442728194141_1_alg».proof.Proof.Spec

noncomputable section

namespace Cert.RefSpec

open Idealize.ShloMosaic Idealize.ShloMosaic.ValueIdx Cert.ReferenceIdeal Cert.ReferenceIdeal.Read Cert.Spec

/-- Two indices of a rank-2, rank-3 or rank-4 shape with the same coordinates are equal. -/
macro "idx2" : tactic => `(tactic| exact funext fun a => Fin.ext (by match a with | ⟨0, _⟩ => rfl | ⟨1, _⟩ => rfl))
macro "idx3" : tactic => `(tactic| exact funext fun a => Fin.ext (by match a with | ⟨0, _⟩ => rfl | ⟨1, _⟩ => rfl | ⟨2, _⟩ => rfl))
macro "idx4" : tactic => `(tactic| exact funext fun a => Fin.ext (by match a with | ⟨0, _⟩ => rfl | ⟨1, _⟩ => rfl | ⟨2, _⟩ => rfl | ⟨3, _⟩ => rfl))

abbrev A3 := (⟨S4x256x256, .f32⟩ : BufTy).Contents (Elt Ideal)
abbrev A2 := (⟨S256x256, .f32⟩ : BufTy).Contents (Elt Ideal)
abbrev A2v := (⟨S128x256, .f32⟩ : BufTy).Contents (Elt Ideal)

/-- The value projection. -/
theorem v0_eq (x0 : A3) (x1 : A2v) (b : Fin 4) (r : Fin 256) (h : Fin 128) :
    val_main_v0 (F := Ideal) x0 x1 (ix3 b r h) = Spec.val (slab x0 b) (mat x1) r h := by
  rw [val_main_v0_apply]
  unfold Spec.val
  refine Finset.sum_congr rfl fun k _ => ?_
  have e1 : lidx_main_v0 (ix3 b r h) k = ix3 b r k := by idx3
  have e2 : ridx_main_v0 (ix3 b r h) k = ix2 h k := by idx2
  rw [e1, e2]; rfl

/-- The norm of a token plus 1e-12 (query copy). -/
theorem v3_eq (x0 : A3) (b : Fin 4) (r : Fin 256) (z : Fin 1) :
    val_main_v3 (F := Ideal) x0 (ix3 b r z)
      = Ideal.sqrt (∑ k : Fin 256, slab x0 b r k * slab x0 b r k) + e12 := by
  rw [val_main_v3_apply, val_main_v1_apply, val_main_call0_v2_apply, val_main_call0_v1_apply, val_main_v2_apply,
    val_main_cst_apply, val_main_call0_cst_apply]
  simp only [Ideal.addf_def, Ideal.hostUnary_sqrt_def, Ideal.ofBits_def, Ideal.ofBits_zero_f32, zero_add]
  congr 2
  refine Finset.sum_congr rfl fun k _ => ?_
  rw [val_main_call0_v0_apply, Ideal.mulf_def]
  have e : idx_main_call0_v1 (idx_main_call0_v2 (ix3 b r z)) k = ix3 b r k := by idx3
  rw [e]; rfl

/-- The normalised token (query copy). -/
theorem v5_eq (x0 : A3) (b : Fin 4) (r e : Fin 256) :
    val_main_v5 (F := Ideal) x0 (ix3 b r e) = psi (slab x0 b) r e := by
  rw [val_main_v5_apply, val_main_v4_apply, Ideal.hostDivf_def]
  have e4 : idx_main_v4 (ix3 b r e) = ix3 b r (0 : Fin 1) := by idx3
  rw [e4, v3_eq]; rfl

/-- The projections of the normalised token (query copy). -/
theorem v6_eq (x0 : A3) (w : A2) (b : Fin 4) (r f : Fin 256) :
    val_main_v6 (F := Ideal) x0 w (ix3 b r f) = amp (slab x0 b) (mat w) r f := by
  rw [val_main_v6_apply]
  unfold amp
  refine Finset.sum_congr rfl fun k _ => ?_
  have e1 : lidx_main_v6 (ix3 b r f) k = ix3 b r k := by idx3
  have e2 : ridx_main_v6 (ix3 b r f) k = ix2 f k := by idx2
  rw [e1, e2, v5_eq]; rfl

/-- The total of the squared projections plus 1e-10 (query copy). -/
theorem v11_eq (x0 : A3) (w : A2) (b : Fin 4) (r : Fin 256) (z : Fin 1) :
    val_main_v11 (F := Ideal) x0 w (ix3 b r z)
      = (∑ g : Fin 256, amp (slab x0 b) (mat w) r g * amp (slab x0 b) (mat w) r g) + e10 := by
  rw [val_main_v11_apply, val_main_v9_apply, val_main_v8_apply, val_main_v10_apply,
    val_main_cst_1_apply, val_main_cst_0_apply]
  simp only [Ideal.addf_def, Ideal.ofBits_def, Ideal.ofBits_zero_f32, zero_add]
  congr 1
  refine Finset.sum_congr rfl fun k _ => ?_
  rw [val_main_v7_apply, Ideal.mulf_def]
  have e : idx_main_v8 (idx_main_v9 (ix3 b r z)) k = ix3 b r k := by idx3
  rw [e, v6_eq]

/-- A row of rho (query copy). -/
theorem v13_eq (x0 : A3) (w : A2) (b : Fin 4) (r f : Fin 256) :
    val_main_v13 (F := Ideal) x0 w (ix3 b r f) = rho (slab x0 b) (mat w) r f := by
  rw [val_main_v13_apply, val_main_v12_apply, val_main_v7_apply, Ideal.hostDivf_def, Ideal.mulf_def]
  have e12' : idx_main_v12 (ix3 b r f) = ix3 b r (0 : Fin 1) := by idx3
  rw [e12', v11_eq, v6_eq]; rfl

/-- The norm of a token plus 1e-12 (key copy). -/
theorem v16_eq (x0 : A3) (b : Fin 4) (r : Fin 256) (z : Fin 1) :
    val_main_v16 (F := Ideal) x0 (ix3 b r z)
      = Ideal.sqrt (∑ k : Fin 256, slab x0 b r k * slab x0 b r k) + e12 := by
  rw [val_main_v16_apply, val_main_v14_apply, val_main_call1_v2_apply, val_main_call1_v1_apply, val_main_v15_apply,
    val_main_cst_2_apply, val_main_call1_cst_apply]
  simp only [Ideal.addf_def, Ideal.hostUnary_sqrt_def, Ideal.ofBits_def, Ideal.ofBits_zero_f32, zero_add]
  congr 2
  refine Finset.sum_congr rfl fun k _ => ?_
  rw [val_main_call1_v0_apply, Ideal.mulf_def]
  have e : idx_main_call1_v1 (idx_main_call1_v2 (ix3 b r z)) k = ix3 b r k := by idx3
  rw [e]; rfl

/-- The normalised token (key copy). -/
theorem v18_eq (x0 : A3) (b : Fin 4) (r e : Fin 256) :
    val_main_v18 (F := Ideal) x0 (ix3 b r e) = psi (slab x0 b) r e := by
  rw [val_main_v18_apply, val_main_v17_apply, Ideal.hostDivf_def]
  have e4 : idx_main_v17 (ix3 b r e) = ix3 b r (0 : Fin 1) := by idx3
  rw [e4, v16_eq]; rfl

/-- The projections of the normalised token (key copy). -/
theorem v19_eq (x0 : A3) (w : A2) (b : Fin 4) (r f : Fin 256) :
    val_main_v19 (F := Ideal) x0 w (ix3 b r f) = amp (slab x0 b) (mat w) r f := by
  rw [val_main_v19_apply]
  unfold amp
  refine Finset.sum_congr rfl fun k _ => ?_
  have e1 : lidx_main_v19 (ix3 b r f) k = ix3 b r k := by idx3
  have e2 : ridx_main_v19 (ix3 b r f) k = ix2 f k := by idx2
  rw [e1, e2, v18_eq]; rfl

/-- The total of the squared projections plus 1e-10 (key copy). -/
theorem v24_eq (x0 : A3) (w : A2) (b : Fin 4) (r : Fin 256) (z : Fin 1) :
    val_main_v24 (F := Ideal) x0 w (ix3 b r z)
      = (∑ g : Fin 256, amp (slab x0 b) (mat w) r g * amp (slab x0 b) (mat w) r g) + e10 := by
  rw [val_main_v24_apply, val_main_v22_apply, val_main_v21_apply, val_main_v23_apply,
    val_main_cst_4_apply, val_main_cst_3_apply]
  simp only [Ideal.addf_def, Ideal.ofBits_def, Ideal.ofBits_zero_f32, zero_add]
  congr 1
  refine Finset.sum_congr rfl fun k _ => ?_
  rw [val_main_v20_apply, Ideal.mulf_def]
  have e : idx_main_v21 (idx_main_v22 (ix3 b r z)) k = ix3 b r k := by idx3
  rw [e, v19_eq]

/-- A row of rho (key copy). -/
theorem v26_eq (x0 : A3) (w : A2) (b : Fin 4) (r f : Fin 256) :
    val_main_v26 (F := Ideal) x0 w (ix3 b r f) = rho (slab x0 b) (mat w) r f := by
  rw [val_main_v26_apply, val_main_v25_apply, val_main_v20_apply, Ideal.hostDivf_def, Ideal.mulf_def]
  have e12' : idx_main_v25 (ix3 b r f) = ix3 b r (0 : Fin 1) := by idx3
  rw [e12', v24_eq, v19_eq]; rfl

end Cert.RefSpec

end
-- ==== Proof.RefIsSpecB.lean ====
/-
  The reference program, stage by stage: the table of Jensen–Shannon terms.  For a batch b, a query row i and
  a key row j the program broadcasts the two rows of rho against each other over a fourth axis, takes the
  logarithm of the mixture and of each row, and sums over the fourth axis.
-/
import proofs.«117373_j30442728194141_1_alg».proof.Proof.RefIsSpecA

noncomputable section

namespace Cert.RefSpec

open Idealize.ShloMosaic Idealize.ShloMosaic.ValueIdx Cert.ReferenceIdeal Cert.ReferenceIdeal.Read Cert.Spec

/-- Row i of the query distributions and row j of the key distributions of slab b, as the program computes them. -/
abbrev rowP (x0 : A3) (x2 : A2) (b : Fin 4) (i : Fin 256) : Fin 256 → EReal :=
  fun e => val_main_v13 (F := Ideal) x0 x2 (ix3 b i e)
abbrev rowQ (x0 : A3) (x3 : A2) (b : Fin 4) (j : Fin 256) : Fin 256 → EReal :=
  fun e => val_main_v26 (F := Ideal) x0 x3 (ix3 b j e)

/-- The query rows with a unit axis inserted. -/
theorem v27_eq (x0 : A3) (w : A2) (b : Fin 4) (i : Fin 256) (z : Fin 1) (k : Fin 256) :
    val_main_v27 (F := Ideal) x0 w (ix4 b i z k) = val_main_v13 (F := Ideal) x0 w (ix3 b i k) := by
  rw [val_main_v27_apply]
  have e : idx_main_v27 (ix4 b i z k) = ix3 b i k := by idx3
  rw [e]

/-- The key rows with a unit axis inserted. -/
theorem v28_eq (x0 : A3) (w : A2) (b : Fin 4) (z : Fin 1) (j k : Fin 256) :
    val_main_v28 (F := Ideal) x0 w (ix4 b z j k) = val_main_v26 (F := Ideal) x0 w (ix3 b j k) := by
  rw [val_main_v28_apply]
  have e : idx_main_v28 (ix4 b z j k) = ix3 b j k := by idx3
  rw [e]

/-- The logarithm of the mixture. -/
theorem v36_eq (x0 : A3) (x2 x3 : A2) (b : Fin 4) (i j k : Fin 256) :
    val_main_v36 (F := Ideal) x0 x2 x3 (ix4 b i j k) = lm (rowP x0 x2 b i) (rowQ x0 x3 b j) k := by
  rw [val_main_v36_apply, val_main_v35_apply, val_main_v33_apply, val_main_v34_apply, val_main_cst_6_apply,
    val_main_v32_apply, val_main_cst_5_apply, val_main_v31_apply, val_main_v29_apply, val_main_v30_apply]
  have e1 : idx_main_v29 (ix4 b i j k) = ix4 b i (0 : Fin 1) k := by idx4
  have e2 : idx_main_v30 (ix4 b i j k) = ix4 b (0 : Fin 1) j k := by idx4
  rw [e1, e2, v27_eq, v28_eq]
  rfl

/-- A summand of the query half. -/
theorem v43_eq (x0 : A3) (x2 x3 : A2) (b : Fin 4) (i j k : Fin 256) :
    val_main_v43 (F := Ideal) x0 x2 x3 (ix4 b i j k)
      = rowP x0 x2 b i k * (Ideal.log (rowP x0 x2 b i k + e10) - lm (rowP x0 x2 b i) (rowQ x0 x3 b j) k) := by
  rw [val_main_v43_apply, val_main_v42_apply, val_main_v41_apply, val_main_v40_apply, val_main_v39_apply,
    val_main_v38_apply, val_main_v37_apply, val_main_cst_7_apply, v36_eq]
  have e1 : idx_main_v42 (ix4 b i j k) = ix4 b i (0 : Fin 1) k := by idx4
  have e2 : idx_main_v40 (ix4 b i j k) = ix4 b i (0 : Fin 1) k := by idx4
  rw [e1, e2, v27_eq]
  rw [Ideal.mulf_def, Ideal.subf_def, Ideal.hostUnary_log_def, Ideal.addf_def, Ideal.ofBits_def]

/-- A summand of the key half. -/
theorem v53_eq (x0 : A3) (x2 x3 : A2) (b : Fin 4) (i j k : Fin 256) :
    val_main_v53 (F := Ideal) x0 x2 x3 (ix4 b i j k)
      = rowQ x0 x3 b j k * (Ideal.log (rowQ x0 x3 b j k + e10) - lm (rowP x0 x2 b i) (rowQ x0 x3 b j) k) := by
  rw [val_main_v53_apply, val_main_v52_apply, val_main_v51_apply, val_main_v50_apply, val_main_v49_apply,
    val_main_v48_apply, val_main_v47_apply, val_main_cst_10_apply, v36_eq]
  have e1 : idx_main_v52 (ix4 b i j k) = ix4 b (0 : Fin 1) j k := by idx4
  have e2 : idx_main_v50 (ix4 b i j k) = ix4 b (0 : Fin 1) j k := by idx4
  rw [e1, e2, v28_eq]
  rw [Ideal.mulf_def, Ideal.subf_def, Ideal.hostUnary_log_def, Ideal.addf_def, Ideal.ofBits_def]

/-- Half the sum of the query half. -/
theorem v46_eq (x0 : A3) (x2 x3 : A2) (b : Fin 4) (i j : Fin 256) :
    val_main_v46 (F := Ideal) x0 x2 x3 (ix3 b i j)
      = hf * ∑ e : Fin 256, rowP x0 x2 b i e * (Ideal.log (rowP x0 x2 b i e + e10) - lm (rowP x0 x2 b i) (rowQ x0 x3 b j) e) := by
  rw [val_main_v46_apply, val_main_v45_apply, val_main_cst_9_apply, val_main_v44_apply, val_main_cst_8_apply]
  simp only [Ideal.mulf_def, Ideal.ofBits_def, Ideal.ofBits_zero_f32, zero_add]
  refine congrArg (fun s => hf * s) (Finset.sum_congr rfl fun k _ => ?_)
  have e : idx_main_v44 (ix3 b i j) k = ix4 b i j k := by idx4
  rw [e, v43_eq]

/-- Half the sum of the key half. -/
theorem v56_eq (x0 : A3) (x2 x3 : A2) (b : Fin 4) (i j : Fin 256) :
    val_main_v56 (F := Ideal) x0 x2 x3 (ix3 b i j)
      = hf * ∑ e : Fin 256, rowQ x0 x3 b j e * (Ideal.log (rowQ x0 x3 b j e + e10) - lm (rowP x0 x2 b i) (rowQ x0 x3 b j) e) := by
  rw [val_main_v56_apply, val_main_v55_apply, val_main_cst_12_apply, val_main_v54_apply, val_main_cst_11_apply]
  simp only [Ideal.mulf_def, Ideal.ofBits_def, Ideal.ofBits_zero_f32, zero_add]
  refine congrArg (fun s => hf * s) (Finset.sum_congr rfl fun k _ => ?_)
  have e : idx_main_v54 (ix3 b i j) k = ix4 b i j k := by idx4
  rw [e, v53_eq]

/-- The Jensen–Shannon term of query row i and key row j, in the reference's spelling. -/
theorem v57_eq (x0 : A3) (x2 x3 : A2) (b : Fin 4) (i j : Fin 256) :
    val_main_v57 (F := Ideal) x0 x2 x3 (ix3 b i j)
      = jsRef (rho (slab x0 b) (mat x2) i) (rho (slab x0 b) (mat x3) j) := by
  have hP : rowP x0 x2 b i = rho (slab x0 b) (mat x2) i := funext fun e => v13_eq x0 x2 b i e
  have hQ : rowQ x0 x3 b j = rho (slab x0 b) (mat x3) j := funext fun e => v26_eq x0 x3 b j e
  rw [val_main_v57_apply, v46_eq, v56_eq, hP, hQ]
  rfl

end Cert.RefSpec

end
-- ==== Proof.RefIsSpec.lean ====
/-
  The reference program, stage by stage: the causal mask, the masked scores, the division of a row of scores
  by the larger of its L1 norm and 1e-12, and the product with the value projection.  Together with the
  earlier stages this says that the reference program computes the layer of Spec, with the Jensen–Shannon
  term in the reference's spelling.
-/
import proofs.«117373_j30442728194141_1_alg».proof.Proof.RefIsSpecB
import Idealize.ShloMosaic.Lib.Affine

noncomputable section

namespace Cert.RefSpec

open Idealize.ShloMosaic Idealize.ShloMosaic.ValueIdx Cert.ReferenceIdeal Cert.ReferenceIdeal.Read Cert.Spec

/-- The 32-bit word of a number below 256, read as a signed integer, is that number. -/
theorem toInt_ofNat_small (n : Nat) (hn : n < 256) : (BitVec.ofNat 32 n).toInt = (n : Int) := by
  rw [BitVec.toInt_eq_toNat_cond, BitVec.toNat_ofNat]
  have h : n % 2 ^ 32 = n := Nat.mod_eq_of_lt (by omega)
  rw [h, if_pos (by omega)]

/-- The causal mask: the bit at (i, j) is set exactly when j ≤ i. -/
theorem v61_eq (i j : Fin 256) :
    val_main_v61 (F := Ideal) (ix2 i j) = if j.val ≤ i.val then 1#1 else 0#1 := by
  rw [val_main_v61_apply, val_main_call2_v4_apply, val_main_call2_v2_apply, val_main_call2_v0_apply,
    val_main_call2_v1_apply, val_main_call2_c_apply, val_main_call2_v3_apply, val_main_v60_apply, val_main_c_apply,
    val_main_call2_v5_apply, val_main_call2_c_0_apply]
  show Scalar.select (IntOp.cmpi .sge (IntOp.addi (BitVec.ofNat 32 i.val) 0#32) (BitVec.ofNat 32 j.val)) 1#1 0#1 = _
  have h0 : IntOp.addi (BitVec.ofNat 32 i.val) 0#32 = BitVec.ofNat 32 i.val := by
    unfold IntOp.addi; exact BitVec.add_zero _
  rw [h0]
  by_cases h : j.val ≤ i.val
  · have hc : IntOp.cmpi .sge (BitVec.ofNat 32 i.val) (BitVec.ofNat 32 j.val) = 1#1 :=
      IntOp.cmpi_sge.mpr (by
        rw [toInt_ofNat_small _ i.isLt, toInt_ofNat_small _ j.isLt]; exact_mod_cast h)
    rw [hc, if_pos h, select_one]
  · have hc : IntOp.cmpi .sge (BitVec.ofNat 32 i.val) (BitVec.ofNat 32 j.val) = 0#1 :=
      eq_zero_of_ne_one fun hh => h (by
        have h1 := IntOp.cmpi_sge.mp hh
        rw [toInt_ofNat_small _ i.isLt, toInt_ofNat_small _ j.isLt] at h1
        exact_mod_cast h1)
    rw [hc, if_neg h, select_zero]

/-- The table of Jensen–Shannon terms of a slab. -/
abbrev jsTab (x0 : A3) (x2 x3 : A2) (b : Fin 4) : Fin 256 → Fin 256 → EReal :=
  fun i j => jsRef (rho (slab x0 b) (mat x2) i) (rho (slab x0 b) (mat x3) j)

/-- The masked score. -/
theorem v62_eq (x0 : A3) (x2 x3 : A2) (b : Fin 4) (i j : Fin 256) :
    val_main_v62 (F := Ideal) x0 x2 x3 (ix3 b i j) = score (jsTab x0 x2 x3 b) i j := by
  rw [val_main_v62_apply, val_main_call3_v1_apply, val_main_v59_apply, val_main_v58_apply, val_main_cst_13_apply,
    val_main_call3_v2_apply, val_main_call3_v0_apply, val_main_cst_14_apply, v57_eq]
  have e : idx_main_call3_v1 (ix3 b i j) = ix2 i j := by idx2
  rw [e, v61_eq]
  unfold score
  simp only [Ideal.subf_def, Ideal.ofBits_def, Ideal.ofBits_zero_f32]
  by_cases h : j.val ≤ i.val
  · rw [if_pos h, if_pos h, select_one]
  · rw [if_neg h, if_neg h, select_zero]

/-- The larger of the L1 norm of a row of scores and 1e-12. -/
theorem v67_eq (x0 : A3) (x2 x3 : A2) (b : Fin 4) (i : Fin 256) (z : Fin 1) :
    val_main_v67 (F := Ideal) x0 x2 x3 (ix3 b i z)
      = max (∑ k : Fin 256, max (score (jsTab x0 x2 x3 b) i k) (-(score (jsTab x0 x2 x3 b) i k))) e12 := by
  rw [val_main_v67_apply, val_main_v65_apply, val_main_v64_apply, val_main_cst_15_apply, val_main_v66_apply,
    val_main_cst_16_apply]
  simp only [Ideal.maximumf_def, Ideal.ofBits_def, Ideal.ofBits_zero_f32, zero_add]
  refine congrArg (fun s => max s e12) (Finset.sum_congr rfl fun k _ => ?_)
  have e : idx_main_v64 (idx_main_v65 (ix3 b i z)) k = ix3 b i k := by idx3
  rw [e, val_main_v63_apply, v62_eq]
  rfl

/-- A normalised score. -/
theorem v69_eq (x0 : A3) (x2 x3 : A2) (b : Fin 4) (i j : Fin 256) :
    val_main_v69 (F := Ideal) x0 x2 x3 (ix3 b i j)
      = Ideal.div (score (jsTab x0 x2 x3 b) i j)
          (max (∑ k : Fin 256, max (score (jsTab x0 x2 x3 b) i k) (-(score (jsTab x0 x2 x3 b) i k))) e12) := by
  rw [val_main_v69_apply, val_main_v68_apply, Ideal.hostDivf_def, v62_eq]
  have e : idx_main_v68 (ix3 b i j) = ix3 b i (0 : Fin 1) := by idx3
  rw [e, v67_eq]

/-- The result of the reference program at (b, i, h). -/
theorem v70_eq (x0 : A3) (x1 : A2v) (x2 x3 : A2) (b : Fin 4) (i : Fin 256) (h : Fin 128) :
    val_main_v70 (F := Ideal) x0 x1 x2 x3 (ix3 b i h)
      = attnOut (score (jsTab x0 x2 x3 b)) (Spec.val (slab x0 b) (mat x1)) i h := by
  rw [val_main_v70_apply]
  unfold attnOut
  refine Finset.sum_congr rfl fun k _ => ?_
  have e1 : lidx_main_v70 (ix3 b i h) k = ix3 b i k := by idx3
  have e2 : ridx_main_v70 (ix3 b i h) k = ix3 b k h := by idx3
  rw [e1, e2, v69_eq, v0_eq]

/-- The reference program computes the layer with the reference's Jensen–Shannon term. -/
theorem ref_eq (x0 : A3) (x1 : A2v) (x2 x3 : A2) :
    Cert.ReferenceIdeal.Read.val_main_v70 (F := Ideal) x0 x1 x2 x3 = Cert.Spec.G Cert.Spec.jsRef x0 x1 x2 x3 := by
  funext i
  obtain ⟨b, r, h, rfl⟩ : ∃ (b : Fin 4) (r : Fin 256) (h : Fin 128), i = ix3 b r h := ⟨i 0, i 1, i 2, eq_ix3 i⟩
  rw [v70_eq]
  rfl

end Cert.RefSpec

end
-- ==== Proof.Claims.lean ====
/-
  The five claims of the certificate.

  The three frames are the frame runs of the three programs: each program terminates without a fault and leaves
  its four argument arrays as they were.  The idealization of the kernel rewrote no operation, so there is
  nothing to preserve.  The algebraic claim: from memories that agree on the four arguments, the idealized kernel
  and the idealized reference both end with the result array at the layer G of the arguments, with the
  Jensen–Shannon term in the reference's spelling — the kernel by its run over the stored score tiles, the
  reference stage by stage — so the two results are equal element by element.
-/
import proofs.«117373_j30442728194141_1_alg».proof.Defs
import proofs.«117373_j30442728194141_1_alg».proof.Proof.Gen.Kernel
import proofs.«117373_j30442728194141_1_alg».proof.Proof.Gen.Kernel.Frame
import proofs.«117373_j30442728194141_1_alg».proof.Proof.Gen.KernelIdeal
import proofs.«117373_j30442728194141_1_alg».proof.Proof.Gen.KernelIdeal.Frame
import proofs.«117373_j30442728194141_1_alg».proof.Proof.Gen.ReferenceIdeal
import proofs.«117373_j30442728194141_1_alg».proof.Proof.Gen.Pre_finite_inputs
import proofs.«117373_j30442728194141_1_alg».proof.Proof.Gen.ReferenceIdeal.Run
import proofs.«117373_j30442728194141_1_alg».proof.Proof.Gen.ReferenceIdeal.Read
import proofs.«117373_j30442728194141_1_alg».proof.Proof.Final
import proofs.«117373_j30442728194141_1_alg».proof.Proof.RefIsSpec

noncomputable section

namespace Cert.Proof.Claims

open Idealize.ShloMosaic Idealize.SL.Sem

/-- The kernel runs and leaves its arguments unchanged. -/
theorem frame_p : Cert.frame_Kernel := fun m ρ _ => Cert.Kernel.Gen.frame m ρ

/-- The idealized kernel runs and leaves its arguments unchanged. -/
theorem frame_pi : Cert.frame_KernelIdeal := fun m ρ _ => Cert.KernelIdeal.Gen.frame m ρ

/-- The idealized reference runs and leaves its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the result array at the layer of the arguments, the Jensen–Shannon term in the
    reference's spelling: the kernel by its run, the reference by its stages; the arguments agree. -/
theorem algebraic : Cert.algebraic_KernelIdeal_ReferenceIdeal := by
  intro m ρ m' ρ' hpre hagree
  refine ⟨fun c => Cert.Spec.G Cert.Spec.jsRef
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelFinal.run m ρ hpre, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v70_eq, Cert.RefSpec.ref_eq, (hagree c).1, (hagree c).2.1, (hagree c).2.2.1,
    (hagree c).2.2.2]

end Cert.Proof.Claims

end
-- ==== Proof.lean ====
/-
  The certificate's claim, assembled.

  Frames: each of the three programs — the kernel, the kernel read on the extended reals, and the reference read
  on the extended reals — terminates without a fault and leaves its four argument arrays as they were; these are
  the frame runs of the imported generated modules.

  Preservation: reading the kernel on the extended reals rewrote no operation, so there is nothing to show.

  The algebraic claim: on the extended reals, from memories that agree on the four arguments, both programs end
  with the same result array, namely the layer G of the arguments (Spec).  For a batch slab X the layer
  normalises each token, projects it on the rows of Wq and of Wk, squares and renormalises (a row of rho), takes
  for each causal pair (i, j) one minus the Jensen–Shannon term of row i of rho_q and row j of rho_k, divides a
  row of scores by the larger of its L1 norm and 1e-12, and multiplies with X · Wvᵀ.  The reference computes
  this stage by stage, with the Jensen–Shannon term written as two sums of P (log P − log M).  The kernel
  computes the scores in six stored tiles (the tiles meeting the lower triangle) with the term written as
  ½ (Σ P log P + Σ Q log Q) − ½ (Σ P log M + Σ Q log M); the two spellings agree when the rows of rho are rows
  of nonnegative reals, because every logarithm is then taken of a positive real and the identity is
  distributivity in the real field.  This is where the finiteness of the inputs is used: finite inputs are
  real numbers, and a row of rho of real inputs is a row of nonnegative reals.
-/
import proofs.«117373_j30442728194141_1_alg».proof.Defs
import proofs.«117373_j30442728194141_1_alg».proof.Proof.Gen.Kernel
import proofs.«117373_j30442728194141_1_alg».proof.Proof.Gen.Kernel.Skeleton
import proofs.«117373_j30442728194141_1_alg».proof.Proof.Gen.Kernel.Launch
import proofs.«117373_j30442728194141_1_alg».proof.Proof.Gen.Kernel.Points
import proofs.«117373_j30442728194141_1_alg».proof.Proof.Gen.Kernel.Frame
import proofs.«117373_j30442728194141_1_alg».proof.Proof.Gen.KernelIdeal
import proofs.«117373_j30442728194141_1_alg».proof.Proof.Gen.KernelIdeal.Skeleton
import proofs.«117373_j30442728194141_1_alg».proof.Proof.Gen.KernelIdeal.Launch
import proofs.«117373_j30442728194141_1_alg».proof.Proof.Gen.KernelIdeal.Points
import proofs.«117373_j30442728194141_1_alg».proof.Proof.Gen.KernelIdeal.Frame
import proofs.«117373_j30442728194141_1_alg».proof.Proof.Gen.ReferenceIdeal
import proofs.«117373_j30442728194141_1_alg».proof.Proof.Gen.Pre_finite_inputs
import proofs.«117373_j30442728194141_1_alg».proof.Proof.Gen.KernelIdeal.Value
import proofs.«117373_j30442728194141_1_alg».proof.Proof.Gen.ReferenceIdeal.Run
import proofs.«117373_j30442728194141_1_alg».proof.Proof.Gen.ReferenceIdeal.Read
import proofs.«117373_j30442728194141_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, Claims.preserves, Claims.algebraic⟩

end Cert.Proof

end
